-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 39
  | .vmem => 12
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S1x8192, .f32⟩
  | .hbm, ⟨6, _⟩ => ⟨S8192x1, .f32⟩
  | .hbm, ⟨7, _⟩ => ⟨S8192x1, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 128
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1x8192, .f32⟩
  | .hbm, ⟨60, _⟩ => ⟨S8192x1, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S1x8192, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .i1⟩
  | .hbm, ⟨81, _⟩ => ⟨S_, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .i32⟩
  | .hbm, ⟨86, _⟩ => ⟨S_, .i32⟩
  | .hbm, ⟨87, _⟩ => ⟨S8192x8192, .i32⟩
  | .hbm, ⟨88, _⟩ => ⟨S8192x8192, .i32⟩
  | .hbm, ⟨89, _⟩ => ⟨S8192x8192, .i32⟩
  | .hbm, ⟨90, _⟩ => ⟨S8192x8192, .i1⟩
  | .hbm, ⟨91, _⟩ => ⟨S_, .f32⟩
  | .hbm, ⟨92, _⟩ => ⟨S8192x8192, .f32⟩
  | .hbm, ⟨93, _⟩ => ⟨S8192x8192, .f32⟩
  | .hbm, ⟨94, _⟩ => ⟨S8192x8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S8192x8192, .f32⟩
  | .hbm, ⟨99, _⟩ => ⟨S8192x8192, .f32⟩
  | .hbm, ⟨100, _⟩ => ⟨S_, .f32⟩
  | .hbm, ⟨101, _⟩ => ⟨S8192x8192, .f32⟩
  | .hbm, ⟨102, _⟩ => ⟨S8192x8192, .f32⟩
  | .hbm, ⟨103, _⟩ => ⟨S8192x8192, .f32⟩
  | .hbm, ⟨104, _⟩ => ⟨S8192x8192, .f32⟩
  | .hbm, ⟨105, _⟩ => ⟨S_, .f32⟩
  | .hbm, ⟨106, _⟩ => ⟨S8192, .f32⟩
  | .hbm, ⟨107, _⟩ => ⟨S1x8192, .f32⟩
  | .hbm, ⟨108, _⟩ => ⟨S8192x8192, .f32⟩
  | .hbm, ⟨109, _⟩ => ⟨S_, .f32⟩
  | .hbm, ⟨110, _⟩ => ⟨S8192, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S_, .f32⟩
  | .hbm, ⟨115, _⟩ => ⟨S8192, .f32⟩
  | .hbm, ⟨116, _⟩ => ⟨S8192, .f32⟩
  | .hbm, ⟨117, _⟩ => ⟨S8192, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_call0_cst : Ref sig .tc := ⟨.hbm, 24, rfl⟩
abbrev main_call0_v0 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_cst : Ref sig .tc := ⟨.hbm, 35, rfl⟩
abbrev main_call1_v5 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_call3_cst : Ref sig .tc := ⟨.hbm, 75, rfl⟩
abbrev main_call3_v0 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_call4_v0 : Ref sig .tc := ⟨.hbm, 85, rfl⟩
abbrev main_call4_c : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_cst : Ref sig .tc := ⟨.hbm, 91, rfl⟩
abbrev main_call4_v5 : Ref sig .tc := ⟨.hbm, 92, rfl⟩
abbrev main_v54 : Ref sig .tc := ⟨.hbm, 93, rfl⟩
abbrev main_v55 : Ref sig .tc := ⟨.hbm, 94, rfl⟩
abbrev main_cst_13 : Ref sig .tc := ⟨.hbm, 95, rfl⟩
abbrev main_v56 : Ref sig .tc := ⟨.hbm, 96, rfl⟩
abbrev main_cst_14 : Ref sig .tc := ⟨.hbm, 97, rfl⟩
abbrev main_v57 : Ref sig .tc := ⟨.hbm, 98, rfl⟩
abbrev main_v58 : Ref sig .tc := ⟨.hbm, 99, rfl⟩
abbrev main_cst_15 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_16 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_17 : Ref sig .tc := ⟨.hbm, 109, rfl⟩
abbrev main_v66 : Ref sig .tc := ⟨.hbm, 110, rfl⟩
abbrev main_v67 : Ref sig .tc := ⟨.hbm, 111, rfl⟩
abbrev main_cst_18 : Ref sig .tc := ⟨.hbm, 112, rfl⟩
abbrev main_v68 : Ref sig .tc := ⟨.hbm, 113, rfl⟩
abbrev main_cst_19 : Ref sig .tc := ⟨.hbm, 114, rfl⟩
abbrev main_v69 : Ref sig .tc := ⟨.hbm, 115, rfl⟩
abbrev main_v70 : Ref sig .tc := ⟨.hbm, 116, rfl⟩
abbrev main_call5_v0 : Ref sig .tc := ⟨.hbm, 117, rfl⟩
abbrev main_call5_cst : Ref sig .tc := ⟨.hbm, 118, rfl⟩
abbrev main_call5_v1 : Ref sig .tc := ⟨.hbm, 119, rfl⟩
abbrev main_v71 : Ref sig .tc := ⟨.hbm, 120, rfl⟩
abbrev main_cst_20 : Ref sig .tc := ⟨.hbm, 121, rfl⟩
abbrev main_v72 : Ref sig .tc := ⟨.hbm, 122, rfl⟩
abbrev main_v73 : Ref sig .tc := ⟨.hbm, 123, rfl⟩
abbrev main_cst_21 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192x8192_S8192_d0 : S8192x8192.ReducesTo [0] S8192
  shapeCasts_S8192_S1x8192 : S8192.ShapeCasts S1x8192
  reducesTo_S8192x8192_S8192_d1 : S8192x8192.ReducesTo [1] S8192
  shapeCasts_S8192_S8192x1 : S8192.ShapeCasts S8192x1
  reducesTo_S8192x1_S8192_d1 : S8192x1.ReducesTo [1] S8192
  reducesTo_S1x8192_S8192_d0 : S1x8192.ReducesTo [0] S8192

variable [Facts₀]

class Facts : Prop extends Facts₀ where

variable [Facts]
-- ==== Proof.KPieces.lean ====
/-
  What one run of the kernel body leaves in the two output blocks, as pure values of what it loaded.

  The body adds to the gradient block the row sums of C over the current column block, and to the hinge block
  the row sums of T over it.  At the first column block of a row block it first stores zeros and reads them
  back, so it leaves  0 + (row sums);  at a later column block it leaves  (what the point before left) + (row sums).
-/
import proofs.«118529_j62191126446112_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- A later column block, gradient output: the block the point before left, plus this block's row sums of C. -/
theorem out_B4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i)
    (x0 : Vec F S1024x1 .f32) (x1 : Vec F S1x1024 .f32) (x2 : Vec F S1024x1 .f32) (x3 : Vec F S1x1024 .f32) (xo4 xo5 : Vec F S1024x1 .f32) :
    out0_B_4 c i arg2 harg2 arg3 harg3 arg4 harg4 arg5 harg5 arg6 harg6 arg7 harg7 hc0 x0 x1 x2 x3 xo4 xo5 = k0_pay1 (k0_pay9 xo4) (k0_pay10 x0 x1 x2 x3) := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero hz]
  simp only [View.readAt_eq_ld, harg2.read_unread, harg3.read_unread, harg4.read_unread, harg5.read_unread, harg6.read_unread,
    harg7.read_unread, View.ld_unit_zero (S := S1024x1) hz, View.ld_unit_zero (S := S1x1024) hz]

/-- A later column block, hinge output: this block's row sums of T added to the block the point before left. -/
theorem out_B5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i)
    (x0 : Vec F S1024x1 .f32) (x1 : Vec F S1x1024 .f32) (x2 : Vec F S1024x1 .f32) (x3 : Vec F S1x1024 .f32) (xo4 xo5 : Vec F S1024x1 .f32) :
    out0_B_5 c i arg2 harg2 arg3 harg3 arg4 harg4 arg5 harg5 arg6 harg6 arg7 harg7 hc0 x0 x1 x2 x3 xo4 xo5 = k0_pay2 (k0_pay8 x0 x1 x2 x3) xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero hz]
  simp only [View.readAt_eq_ld, harg2.read_unread, harg3.read_unread, harg4.read_unread, harg5.read_unread, harg6.read_unread,
    harg7.read_unread, View.ld_unit_zero (S := S1024x1) hz, View.ld_unit_zero (S := S1x1024) hz]

/-- The first column block, gradient output: the zero block read back, plus this block's row sums of C. -/
theorem out_A4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i)
    (x0 : Vec F S1024x1 .f32) (x1 : Vec F S1x1024 .f32) (x2 : Vec F S1024x1 .f32) (x3 : Vec F S1x1024 .f32) :
    out0_A_4 c i arg2 harg2 arg3 harg3 arg4 harg4 arg5 harg5 arg6 harg6 arg7 harg7 hc0 x0 x1 x2 x3 = k0_pay1 (k0_pay9 (k0_pay3 (F := F))) (k0_pay10 x0 x1 x2 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    View.ld_unit_zero (S := S1024x1) hz, View.ld_unit_zero (S := S1x1024) hz]

/-- The first column block, hinge output: this block's row sums of T added to the zero block read back. -/
theorem out_A5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i)
    (x0 : Vec F S1024x1 .f32) (x1 : Vec F S1x1024 .f32) (x2 : Vec F S1024x1 .f32) (x3 : Vec F S1x1024 .f32) :
    out0_A_5 c i arg2 harg2 arg3 harg3 arg4 harg4 arg5 harg5 arg6 harg6 arg7 harg7 hc0 x0 x1 x2 x3 = k0_pay2 (k0_pay8 x0 x1 x2 x3) (k0_pay4 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    View.ld_unit_zero (S := S1024x1) hz, View.ld_unit_zero (S := S1x1024) hz]

end Cert.KernelIdeal.KVal

end
-- ==== Proof.Spec.lean ====
/-
  The pairwise ranking terms over the reals, for predictions p and labels l indexed by Fin n.

    S i j = sign (l j - l i)                       (-1, 0 or 1)
    X i j = (p i - p j) * S i j + 2                (the margin term before the hinge; symmetric in i, j)
    T i j = X i j where X i j > 0, else 0          (the hinge max (X i j) 0)
    C i j = S i j where X i j > 0, else 0          (the derivative of T i j in p i; antisymmetric in i, j)

  Trow k and G k are the sums of row k of T and of C.  The ranking loss is the sum of T over i < j, and its
  gradient in p k is G k.
-/
import Idealize.ShloMosaic.PureOps.Ideal

noncomputable section

namespace PairRank

open scoped BigOperators

variable {n : ℕ}

/-- The sign of a real number as a real number: -1, 0 or 1. -/
def sg (d : ℝ) : ℝ := ((SignType.sign d : SignType) : ℝ)

/-- The sign of the label difference l j - l i. -/
def S (l : Fin n → ℝ) (i j : Fin n) : ℝ := sg (l j - l i)

/-- The margin term (p i - p j) * S i j + 2. -/
def X (p l : Fin n → ℝ) (i j : Fin n) : ℝ := (p i - p j) * S l i j + 2

/-- The hinge of the margin term. -/
def T (p l : Fin n → ℝ) (i j : Fin n) : ℝ := if 0 < X p l i j then X p l i j else 0

/-- The label sign where the margin term is positive, else 0. -/
def C (p l : Fin n → ℝ) (i j : Fin n) : ℝ := if 0 < X p l i j then S l i j else 0

/-- Row k of C summed over all columns. -/
def G (p l : Fin n → ℝ) (k : Fin n) : ℝ := ∑ j, C p l k j

/-- Row k of T summed over all columns. -/
def Trow (p l : Fin n → ℝ) (k : Fin n) : ℝ := ∑ j, T p l k j

end PairRank

end
-- ==== Proof.Lift.lean ====
/-
  Extended reals that are real numbers.  With every input finite, each intermediate value of both programs is a
  real number read as an extended real; the lemmas here carry sums, comparisons and selections across that
  reading, and give the real values of the float words the programs spell.
-/
import proofs.«118529_j62191126446112_2_alg».proof.Proof.Spec
import Idealize.ShloMosaic.PureOps.Ideal.Laws
import Idealize.ShloMosaic.Lib.ValueIdx

noncomputable section

namespace PairRank

open Idealize.ShloMosaic Idealize.ShloMosaic.ValueIdx

open scoped BigOperators

/-- A finite sum of real numbers, each read as an extended real, is the real sum read as an extended real. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A vector of n real numbers as an array of extended reals over the one-axis index type. -/
def vecE {n : ℕ} (p : Fin n → ℝ) : (⟨1, ![n]⟩ : Shape).Idx → EReal := fun i => ((p (i 0) : ℝ) : EReal)

theorem vecE_apply {n : ℕ} (p : Fin n → ℝ) (i : (⟨1, ![n]⟩ : Shape).Idx) : vecE p i = ((p (i 0) : ℝ) : EReal) := rfl

theorem vecE_ix1 {n : ℕ} (p : Fin n → ℝ) (k : Fin n) : vecE p (ix1 k) = ((p k : ℝ) : EReal) := rfl

/-! ## The float words the two programs spell, as real numbers -/

theorem ofBits_zero : Ideal.ofBits .f32 0x00000000#32 = ((0 : ℝ) : EReal) := by
  rw [Ideal.ofBits_zero_f32]; rfl

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

/-- The word 0x39800000 is 2^(-12), that is 2 / 8192. -/
theorem ofBits_two_div_8192 : Ideal.ofBits .f32 0x39800000#32 = (((2 : ℝ) / 8192 : ℝ) : EReal) := by
  simp [Ideal.ofBits, Ideal.ieee, -EReal.coe_mul]; norm_num

/-! ## Comparisons and selections on real numbers -/

theorem cmp_ogt_coe (a b : ℝ) : Ideal.cmp .ogt (a : EReal) (b : EReal) = if b < a then 1#1 else 0#1 := by
  unfold Ideal.cmp
  by_cases h : b < a
  · simp [h]
  · simp [h]

theorem cmp_olt_coe (a b : ℝ) : Ideal.cmp .olt (a : EReal) (b : EReal) = if a < b then 1#1 else 0#1 := by
  unfold Ideal.cmp
  by_cases h : a < b
  · simp [h]
  · simp [h]

/-- Selecting by "a is greater than b" on real numbers. -/
theorem select_ogt_coe {α : Type} (a b : ℝ) (u v : α) :
    Scalar.select (Ideal.cmp .ogt (a : EReal) (b : EReal)) u v = if b < a then u else v := by
  rw [cmp_ogt_coe]
  by_cases h : b < a
  · rw [if_pos h, if_pos h]; exact select_one u v
  · rw [if_neg h, if_neg h]; exact select_zero u v

/-- Selecting by "a is less than b" on real numbers. -/
theorem select_olt_coe {α : Type} (a b : ℝ) (u v : α) :
    Scalar.select (Ideal.cmp .olt (a : EReal) (b : EReal)) u v = if a < b then u else v := by
  rw [cmp_olt_coe]
  by_cases h : a < b
  · rw [if_pos h, if_pos h]; exact select_one u v
  · rw [if_neg h, if_neg h]; exact select_zero u v

/-- The larger of two real numbers, read as extended reals. -/
theorem max_coe (a b : ℝ) : max (a : EReal) (b : EReal) = ((max a b : ℝ) : EReal) :=
  (EReal.coe_strictMono.monotone.map_max).symm

end PairRank

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.KEntry.lean ====
/-
  The kernel body's arithmetic read at one entry, when the four loaded blocks hold real numbers.

  Write a r, b k for the predictions of row r of the row block and column k of the column block, and u r, v k for
  the labels.  At (r, k) the body forms  s = sign (v k - u r)  (as: where |d| > 0, -1 if d < 0 else 1; where
  |d| = 0, d itself),  x = (a r - b k) * s + 2,  the hinge  x if x > 0 else 0  and the gated sign  s if x > 0 else 0;
  it then sums each of the last two along the columns k and adds the row sums to the output blocks.
-/
import proofs.«118529_j62191126446112_2_alg».proof.Proof.Gen.KernelIdeal.Skeleton
import proofs.«118529_j62191126446112_2_alg».proof.Proof.Lift
import proofs.«118529_j62191126446112_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.KVal

open Cert.KernelIdeal Cert.KernelIdeal.Gen PairRank Cert.LibKeepdims

open scoped BigOperators

/-- The sign as the body spells it: where the magnitude is positive, -1 below zero and 1 otherwise; elsewhere the
    number itself, which is then zero. -/
theorem sg_idiom (d : ℝ) : (if 0 < max d (-d) then (if d < 0 then (-1 : ℝ) else 1) else d) = sg d := by
  unfold sg
  rcases lt_trichotomy d 0 with h | h | h
  · have h' : 0 < max d (-d) := lt_max_of_lt_right (by linarith)
    rw [if_pos h', if_pos h, sign_neg h]; simp
  · subst h; simp
  · have h' : 0 < max d (-d) := lt_max_of_lt_left h
    rw [if_pos h', if_neg (not_lt.mpr h.le), sign_pos h]; simp

/-- The sum along the columns of a [1024, 1024] block, viewed as a column: at (r, 0) it is the sum of row r. -/
theorem rowsum_apply (src : FVec Ideal S1024x1024 .f32) (hφ : FKind.Formats .f32)
    (hacc : (0x00000000#32 : BitVec 32) = FKind.add.neutral .f32 hφ) (r : Fin 1024) :
    shapeCast S1024x1 (multiReduction .add [1] S1024 src 0x00000000#32 reduces_S1024x1024_S1024 hφ hacc) shapeCasts_S1024_S1024x1
        (ix2 r (0 : Fin 1))
      = ∑ k : Fin 1024, src (ix2 r k) := by
  refine (shapeCast_a_a1_apply _ shapeCasts_S1024_S1024x1 r 0).trans ?_
  refine (Ideal.multiReduction_add_single src 0x00000000#32 reduces_S1024x1024_S1024 hφ hacc (ix1 r)).trans ?_
  refine Finset.sum_congr rfl fun k _ => congrArg src ?_
  funext ax
  match ax with
  | ⟨0, _⟩ => rfl
  | ⟨1, _⟩ => rfl

section Entry

/-- The magnitude read at an index. -/
theorem absf_apply' {s : Shape} (y : FVec Ideal s .f32) (i : s.Idx) : absf y i = max (y i) (-(y i)) := rfl

/-- A float comparison of two extended reals is the order's. -/
theorem cmpf_ideal (p : CmpFPredicate) (x y : EReal) : FloatOps.cmpf (F := Ideal) (φ := .f32) p x y = Ideal.cmp p x y := rfl

variable (x0 : FVec Ideal S1024x1 .f32) (x1 : FVec Ideal S1x1024 .f32) (x2 : FVec Ideal S1024x1 .f32) (x3 : FVec Ideal S1x1024 .f32)
  (a u b v : Fin 1024 → ℝ)

/-- The label sign at (r, k). -/
theorem pay5_apply (h2 : ∀ r : Fin 1024, x2 (ix2 r (0 : Fin 1)) = ((u r : ℝ) : EReal))
    (h3 : ∀ k : Fin 1024, x3 (ix2 (0 : Fin 1) k) = ((v k : ℝ) : EReal)) (r k : Fin 1024) :
    k0_pay5 (F := Ideal) x2 x3 (ix2 r k) = ((sg (v k - u r) : ℝ) : EReal) := by
  unfold k0_pay5
  simp only [select_apply, cmpf_apply, absf_apply', subf_apply, broadcast_apply, constant_apply, shapeCast_self,
    broadcastTo_1b_ab_apply, broadcastTo_a1_ab_apply, h2, h3, Ideal.ofBits_def, cmpf_ideal]
  rw [← EReal.coe_sub, ← EReal.coe_neg, max_coe, ofBits_zero, ofBits_one, ofBits_neg_one, select_ogt_coe, select_olt_coe,
    ← sg_idiom (v k - u r)]
  split_ifs <;> rfl

/-- The margin term at (r, k). -/
theorem pay6_apply (h0 : ∀ r : Fin 1024, x0 (ix2 r (0 : Fin 1)) = ((a r : ℝ) : EReal))
    (h1 : ∀ k : Fin 1024, x1 (ix2 (0 : Fin 1) k) = ((b k : ℝ) : EReal))
    (h2 : ∀ r : Fin 1024, x2 (ix2 r (0 : Fin 1)) = ((u r : ℝ) : EReal))
    (h3 : ∀ k : Fin 1024, x3 (ix2 (0 : Fin 1) k) = ((v k : ℝ) : EReal)) (r k : Fin 1024) :
    k0_pay6 (F := Ideal) x0 x1 x2 x3 (ix2 r k) = (((a r - b k) * sg (v k - u r) + 2 : ℝ) : EReal) := by
  unfold k0_pay6
  simp only [addf_apply, mulf_apply, subf_apply, broadcast_apply, shapeCast_self, broadcastTo_1b_ab_apply,
    broadcastTo_a1_ab_apply, h0, h1, pay5_apply x2 x3 u v h2 h3, Ideal.ofBits_def]
  rw [ofBits_two, ← EReal.coe_sub, ← EReal.coe_mul, ← EReal.coe_add]

/-- The hinge of the margin term at (r, k). -/
theorem pay8_apply (h0 : ∀ r : Fin 1024, x0 (ix2 r (0 : Fin 1)) = ((a r : ℝ) : EReal))
    (h1 : ∀ k : Fin 1024, x1 (ix2 (0 : Fin 1) k) = ((b k : ℝ) : EReal))
    (h2 : ∀ r : Fin 1024, x2 (ix2 r (0 : Fin 1)) = ((u r : ℝ) : EReal))
    (h3 : ∀ k : Fin 1024, x3 (ix2 (0 : Fin 1) k) = ((v k : ℝ) : EReal)) (r k : Fin 1024) :
    k0_pay8 (F := Ideal) x0 x1 x2 x3 (ix2 r k)
      = ((if 0 < (a r - b k) * sg (v k - u r) + 2 then (a r - b k) * sg (v k - u r) + 2 else 0 : ℝ) : EReal) := by
  unfold k0_pay8 k0_pay7
  simp only [select_apply, cmpf_apply, broadcast_apply, pay6_apply x0 x1 x2 x3 a u b v h0 h1 h2 h3, Ideal.ofBits_def, cmpf_ideal]
  rw [ofBits_zero, select_ogt_coe]
  split_ifs <;> rfl

/-- The gated label sign summed along the columns, as a column: at (r, 0) the sum over k. -/
theorem pay10_apply (h0 : ∀ r : Fin 1024, x0 (ix2 r (0 : Fin 1)) = ((a r : ℝ) : EReal))
    (h1 : ∀ k : Fin 1024, x1 (ix2 (0 : Fin 1) k) = ((b k : ℝ) : EReal))
    (h2 : ∀ r : Fin 1024, x2 (ix2 r (0 : Fin 1)) = ((u r : ℝ) : EReal))
    (h3 : ∀ k : Fin 1024, x3 (ix2 (0 : Fin 1) k) = ((v k : ℝ) : EReal)) (r : Fin 1024) :
    k0_pay10 (F := Ideal) x0 x1 x2 x3 (ix2 r (0 : Fin 1))
      = ((∑ k : Fin 1024, (if 0 < (a r - b k) * sg (v k - u r) + 2 then sg (v k - u r) else 0) : ℝ) : EReal) := by
  unfold k0_pay10 k0_pay7
  refine (rowsum_apply _ _ _ r).trans ?_
  rw [← coe_sum]
  refine Finset.sum_congr rfl fun k _ => ?_
  simp only [select_apply, cmpf_apply, broadcast_apply, pay6_apply x0 x1 x2 x3 a u b v h0 h1 h2 h3,
    pay5_apply x2 x3 u v h2 h3, Ideal.ofBits_def, cmpf_ideal]
  rw [ofBits_zero, select_ogt_coe]
  split_ifs <;> rfl

/-- The hinge block summed along the columns and added to a column block: at (r, 0). -/
theorem pay2_apply (src : FVec Ideal S1024x1024 .f32) (xo : FVec Ideal S1024x1 .f32) (r : Fin 1024) :
    k0_pay2 (F := Ideal) src xo (ix2 r (0 : Fin 1)) = xo (ix2 r (0 : Fin 1)) + ∑ k : Fin 1024, src (ix2 r k) := by
  unfold k0_pay2
  simp only [addf_apply, shapeCast_self]
  exact congrArg (xo (ix2 r (0 : Fin 1)) + ·) (rowsum_apply src _ _ r)

/-- The sum of two column blocks at an entry. -/
theorem pay1_apply (y z : FVec Ideal S1024x1 .f32) (i : S1024x1.Idx) : k0_pay1 (F := Ideal) y z i = y i + z i := rfl

/-- The block read back is the block. -/
theorem pay9_eq (y : FVec Ideal S1024x1 .f32) : k0_pay9 (F := Ideal) y = y := shapeCast_self y _

/-- The zero blocks hold the real number 0. -/
theorem pay3_apply (i : S1024x1.Idx) : k0_pay3 (F := Ideal) i = ((0 : ℝ) : EReal) := by
  unfold k0_pay3
  simp only [broadcast_apply, Ideal.ofBits_def]
  exact ofBits_zero

theorem pay4_apply (i : S1024x1.Idx) : k0_pay4 (F := Ideal) i = ((0 : ℝ) : EReal) := by
  unfold k0_pay4
  simp only [broadcast_apply, Ideal.ofBits_def]
  exact ofBits_zero

end Entry

end Cert.KernelIdeal.KVal

end
-- ==== Proof.KBlocks.lean ====
/-
  The blocks the kernel body loads, as entries of the two argument vectors.

  The predictions p and labels l (8192 entries each) are viewed as columns [8192, 1] and as rows [1, 8192].
  Grid point t = 8 * I + J works on row block I and column block J, each of 1024 entries: it loads rows
  1024 * I + r of the column views and columns 1024 * J + k of the row views.
-/
import proofs.«118529_j62191126446112_2_alg».proof.Proof.Gen.KernelIdeal.Frame
import proofs.«118529_j62191126446112_2_alg».proof.Proof.LibKeepdims
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.LibKeepdims

variable {F : FTy → Type} [FloatOps F]
variable (m : (ℓ : Loc nD τ sig) → Buf (Elt F) ℓ)

/-- Entry 1024 * q + r of an 8192-vector (for a block number q below 8; reduced mod 8192 so that it is always an index). -/
def at8192 (q : ℕ) (r : Fin 1024) : Fin 8192 := ⟨(1024 * q + r.val) % 8192, Nat.mod_lt _ (by norm_num)⟩

theorem at8192_val {q : ℕ} (hq : q < 8) (r : Fin 1024) : (at8192 q r).val = 1024 * q + r.val := by
  have := r.isLt
  exact Nat.mod_eq_of_lt (by omega)

/-- Where each window's block sits at grid point t: the row block t / 8 for the column views and the outputs, the
    column block t % 8 for the row views. -/
theorem idx_facts : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = 0)
    ∧ (win0_3.index t (0 : Fin 2) = 0 ∧ win0_3.index t (1 : Fin 2) = t.val % 8)
    ∧ (win0_4.index t (0 : Fin 2) = t.val / 8 ∧ win0_4.index t (1 : Fin 2) = 0)
    ∧ (win0_5.index t (0 : Fin 2) = t.val / 8 ∧ win0_5.index t (1 : Fin 2) = 0) :=
  (by decide +kernel : ∀ t : Fin grid0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = 0)
    ∧ (win0_3.index t (0 : Fin 2) = 0 ∧ win0_3.index t (1 : Fin 2) = t.val % 8)
    ∧ (win0_4.index t (0 : Fin 2) = t.val / 8 ∧ win0_4.index t (1 : Fin 2) = 0)
    ∧ (win0_5.index t (0 : Fin 2) = t.val / 8 ∧ win0_5.index t (1 : Fin 2) = 0))

/-- The column view of the predictions, as the region finds it. -/
theorem V_v0 (c : Dev nD) : (V m c main_v0 : S8192x1.Idx → Elt F .f32)
    = shapeCast S8192x1 (m ((c : Thread nD τ).loc main_arg0)) shapeCasts_S8192_S8192x1 := by
  show StableHlo.after hostOps0 (fun b => m (c, b)) (Proc.devRef .tc main_v0) = _
  after_results
  rfl

/-- The row view of the predictions. -/
theorem V_v1 (c : Dev nD) : (V m c main_v1 : S1x8192.Idx → Elt F .f32)
    = shapeCast S1x8192 (m ((c : Thread nD τ).loc main_arg0)) shapeCasts_S8192_S1x8192 := by
  show StableHlo.after hostOps0 (fun b => m (c, b)) (Proc.devRef .tc main_v1) = _
  after_results
  rfl

/-- Row r of the predictions' column block at point t is entry 1024 * (t / 8) + r. -/
theorem iblk0_apply (c : Dev nD) (t : Fin cfg0.N) (r : Fin 1024) :
    (iblk m c 0 t : S1024x1.Idx → Elt F .f32) (ix2 r (0 : Fin 1))
      = m ((c : Thread nD τ).loc main_arg0) (ix1 (at8192 (t.val / 8) r)) := by
  have hN : t.val < 64 := lt_of_lt_of_eq t.isLt (show cfg0.N = 64 from N_0)
  have hf := (idx_facts t).1
  unfold iblk
  rw [View.read_apply]
  show V m c main_v0 _ = _
  rw [V_v0]
  refine (congrArg _ ?_).trans (shapeCast_a_a1_apply _ shapeCasts_S8192_S8192x1 (at8192 (t.val / 8) r) 0)
  funext ax
  apply Fin.ext
  match ax with
  | ⟨0, _⟩ =>
    show win0_0.index t 0 * 1024 + 1 * r.val = (at8192 (t.val / 8) r).val
    rw [hf.1, at8192_val (by omega)]; omega
  | ⟨1, _⟩ =>
    show win0_0.index t 1 * 1 + 1 * 0 = 0
    rw [hf.2]

/-- Column k of the predictions' row block at point t is entry 1024 * (t % 8) + k. -/
theorem iblk1_apply (c : Dev nD) (t : Fin cfg0.N) (k : Fin 1024) :
    (iblk m c 1 t : S1x1024.Idx → Elt F .f32) (ix2 (0 : Fin 1) k)
      = m ((c : Thread nD τ).loc main_arg0) (ix1 (at8192 (t.val % 8) k)) := by
  have hN : t.val < 64 := lt_of_lt_of_eq t.isLt (show cfg0.N = 64 from N_0)
  have hf := (idx_facts t).2.1
  unfold iblk
  rw [View.read_apply]
  show V m c main_v1 _ = _
  rw [V_v1]
  refine (congrArg _ ?_).trans (shapeCast_a_1a_apply _ shapeCasts_S8192_S1x8192 (0 : Fin 1) (at8192 (t.val % 8) k))
  funext ax
  apply Fin.ext
  match ax with
  | ⟨0, _⟩ =>
    show win0_1.index t 0 * 1 + 1 * 0 = 0
    rw [hf.1]
  | ⟨1, _⟩ =>
    show win0_1.index t 1 * 1024 + 1 * k.val = (at8192 (t.val % 8) k).val
    rw [hf.2, at8192_val (by omega)]; omega

/-- The column view of the labels, as the region finds it. -/
theorem V_v2 (c : Dev nD) : (V m c main_v2 : S8192x1.Idx → Elt F .f32)
    = shapeCast S8192x1 (m ((c : Thread nD τ).loc main_arg1)) shapeCasts_S8192_S8192x1 := by
  show StableHlo.after hostOps0 (fun b => m (c, b)) (Proc.devRef .tc main_v2) = _
  after_results
  rfl

/-- The row view of the labels. -/
theorem V_v3 (c : Dev nD) : (V m c main_v3 : S1x8192.Idx → Elt F .f32)
    = shapeCast S1x8192 (m ((c : Thread nD τ).loc main_arg1)) shapeCasts_S8192_S1x8192 := by
  show StableHlo.after hostOps0 (fun b => m (c, b)) (Proc.devRef .tc main_v3) = _
  after_results
  rfl

/-- Row r of the labels' column block at point t is entry 1024 * (t / 8) + r. -/
theorem iblk2_apply (c : Dev nD) (t : Fin cfg0.N) (r : Fin 1024) :
    (iblk m c 2 t : S1024x1.Idx → Elt F .f32) (ix2 r (0 : Fin 1))
      = m ((c : Thread nD τ).loc main_arg1) (ix1 (at8192 (t.val / 8) r)) := by
  have hN : t.val < 64 := lt_of_lt_of_eq t.isLt (show cfg0.N = 64 from N_0)
  have hf := (idx_facts t).2.2.1
  unfold iblk
  rw [View.read_apply]
  show V m c main_v2 _ = _
  rw [V_v2]
  refine (congrArg _ ?_).trans (shapeCast_a_a1_apply _ shapeCasts_S8192_S8192x1 (at8192 (t.val / 8) r) 0)
  funext ax
  apply Fin.ext
  match ax with
  | ⟨0, _⟩ =>
    show win0_2.index t 0 * 1024 + 1 * r.val = (at8192 (t.val / 8) r).val
    rw [hf.1, at8192_val (by omega)]; omega
  | ⟨1, _⟩ =>
    show win0_2.index t 1 * 1 + 1 * 0 = 0
    rw [hf.2]

/-- Column k of the labels' row block at point t is entry 1024 * (t % 8) + k. -/
theorem iblk3_apply (c : Dev nD) (t : Fin cfg0.N) (k : Fin 1024) :
    (iblk m c 3 t : S1x1024.Idx → Elt F .f32) (ix2 (0 : Fin 1) k)
      = m ((c : Thread nD τ).loc main_arg1) (ix1 (at8192 (t.val % 8) k)) := by
  have hN : t.val < 64 := lt_of_lt_of_eq t.isLt (show cfg0.N = 64 from N_0)
  have hf := (idx_facts t).2.2.2.1
  unfold iblk
  rw [View.read_apply]
  show V m c main_v3 _ = _
  rw [V_v3]
  refine (congrArg _ ?_).trans (shapeCast_a_1a_apply _ shapeCasts_S8192_S1x8192 (0 : Fin 1) (at8192 (t.val % 8) k))
  funext ax
  apply Fin.ext
  match ax with
  | ⟨0, _⟩ =>
    show win0_3.index t 0 * 1 + 1 * 0 = 0
    rw [hf.1]
  | ⟨1, _⟩ =>
    show win0_3.index t 1 * 1024 + 1 * k.val = (at8192 (t.val % 8) k).val
    rw [hf.2, at8192_val (by omega)]; omega

end Cert.KernelIdeal.KVal

end
-- ==== Proof.KAcc.lean ====
/-
  The accumulation across the grid.  Point t = 8 * I + J adds to the two output blocks of row block I the row sums
  of C and of T over column block J, starting from zero at J = 0.  So after point t, row r of the gradient block
  holds the sum over the column blocks 0 .. J of  ∑ k, C (1024 I + r) (1024 J' + k),  and the hinge block the same
  with T: by induction on the point.
-/
import proofs.«118529_j62191126446112_2_alg».proof.Proof.KPieces
import proofs.«118529_j62191126446112_2_alg».proof.Proof.KEntry
import proofs.«118529_j62191126446112_2_alg».proof.Proof.KBlocks

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen PairRank

open scoped BigOperators

variable (m : (ℓ : Loc nD τ sig) → Buf (Elt Ideal) ℓ) (p l : Fin 8192 → ℝ) (c : Dev nD)

/-- Row 1024 I + r of C summed over column block J. -/
def Cblk (I J : ℕ) (r : Fin 1024) : ℝ := ∑ k : Fin 1024, C p l (at8192 I r) (at8192 J k)

/-- Row 1024 I + r of T summed over column block J. -/
def Tblk (I J : ℕ) (r : Fin 1024) : ℝ := ∑ k : Fin 1024, T p l (at8192 I r) (at8192 J k)

section Point

variable (hp : m ((c : Thread nD τ).loc main_arg0) = vecE p) (hl : m ((c : Thread nD τ).loc main_arg1) = vecE l)
variable (t : Fin cfg0.N)

/-- The four blocks loaded at point t, as arrays of the literal block shapes. -/
abbrev b0 : FVec Ideal S1024x1 .f32 := iblk m c 0 t
abbrev b1 : FVec Ideal S1x1024 .f32 := iblk m c 1 t
abbrev b2 : FVec Ideal S1024x1 .f32 := iblk m c 2 t
abbrev b3 : FVec Ideal S1x1024 .f32 := iblk m c 3 t

include hp in
theorem b0_at (r : Fin 1024) : b0 m c t (ix2 r (0 : Fin 1)) = ((p (at8192 (t.val / 8) r) : ℝ) : EReal) := by
  refine (iblk0_apply m c t r).trans ?_
  rw [hp]; rfl

include hp in
theorem b1_at (k : Fin 1024) : b1 m c t (ix2 (0 : Fin 1) k) = ((p (at8192 (t.val % 8) k) : ℝ) : EReal) := by
  refine (iblk1_apply m c t k).trans ?_
  rw [hp]; rfl

include hl in
theorem b2_at (r : Fin 1024) : b2 m c t (ix2 r (0 : Fin 1)) = ((l (at8192 (t.val / 8) r) : ℝ) : EReal) := by
  refine (iblk2_apply m c t r).trans ?_
  rw [hl]; rfl

include hl in
theorem b3_at (k : Fin 1024) : b3 m c t (ix2 (0 : Fin 1) k) = ((l (at8192 (t.val % 8) k) : ℝ) : EReal) := by
  refine (iblk3_apply m c t k).trans ?_
  rw [hl]; rfl

include hp hl in
/-- This point's row sums of C, at row r. -/
theorem gsum_at (r : Fin 1024) :
    k0_pay10 (F := Ideal) (b0 m c t) (b1 m c t) (b2 m c t) (b3 m c t) (ix2 r (0 : Fin 1))
      = ((Cblk p l (t.val / 8) (t.val % 8) r : ℝ) : EReal) :=
  pay10_apply (b0 m c t) (b1 m c t) (b2 m c t) (b3 m c t)
    (fun r => p (at8192 (t.val / 8) r)) (fun r => l (at8192 (t.val / 8) r))
    (fun k => p (at8192 (t.val % 8) k)) (fun k => l (at8192 (t.val % 8) k))
    (b0_at m p c hp t) (b1_at m p c hp t) (b2_at m l c hl t) (b3_at m l c hl t) r

include hp hl in
/-- This point's hinge terms, at (r, k). -/
theorem hinge_at (r k : Fin 1024) :
    k0_pay8 (F := Ideal) (b0 m c t) (b1 m c t) (b2 m c t) (b3 m c t) (ix2 r k)
      = ((T p l (at8192 (t.val / 8) r) (at8192 (t.val % 8) k) : ℝ) : EReal) :=
  pay8_apply (b0 m c t) (b1 m c t) (b2 m c t) (b3 m c t)
    (fun r => p (at8192 (t.val / 8) r)) (fun r => l (at8192 (t.val / 8) r))
    (fun k => p (at8192 (t.val % 8) k)) (fun k => l (at8192 (t.val % 8) k))
    (b0_at m p c hp t) (b1_at m p c hp t) (b2_at m l c hl t) (b3_at m l c hl t) r k

end Point

section Acc

variable (hp : m ((c : Thread nD τ).loc main_arg0) = vecE p) (hl : m ((c : Thread nD τ).loc main_arg1) = vecE l)

include hp hl in
/-- This point's row sums of T, at row r. -/
theorem tsum_at (t : Fin cfg0.N) (r : Fin 1024) :
    ∑ k : Fin 1024, k0_pay8 (F := Ideal) (b0 m c t) (b1 m c t) (b2 m c t) (b3 m c t) (ix2 r k)
      = ((Tblk p l (t.val / 8) (t.val % 8) r : ℝ) : EReal) := by
  unfold Tblk
  rw [← coe_sum]
  exact Finset.sum_congr rfl fun k _ => hinge_at m p l c hp hl t r k

include hp hl in
/-- At the first column block of a row block the two output blocks hold this point's row sums. -/
theorem stepA (t : Fin cfg0.N) (h0 : t.val % 8 = 0) (r : Fin 1024) :
    (outsAt0 m c t.val t.isLt).1 (ix2 r (0 : Fin 1)) = ((Cblk p l (t.val / 8) (t.val % 8) r : ℝ) : EReal)
    ∧ (outsAt0 m c t.val t.isLt).2 (ix2 r (0 : Fin 1)) = ((Tblk p l (t.val / 8) (t.val % 8) r : ℝ) : EReal) := by
  rw [outsAt0_A m c t h0]
  constructor
  · dsimp only
    rw [out_A4, pay1_apply, pay9_eq, pay3_apply, gsum_at m p l c hp hl t r, ← EReal.coe_add, zero_add]
  · dsimp only
    rw [out_A5, pay2_apply, pay4_apply, tsum_at m p l c hp hl t r, ← EReal.coe_add, zero_add]

include hp hl in
/-- At a later column block they hold what the point before left plus this point's row sums. -/
theorem stepB (t : Fin cfg0.N) (h0 : ¬t.val % 8 = 0) (r : Fin 1024) :
    (outsAt0 m c t.val t.isLt).1 (ix2 r (0 : Fin 1))
        = (outsAt0 m c (t.val - 1) (Nat.lt_of_le_of_lt (Nat.sub_le _ _) t.isLt)).1 (ix2 r (0 : Fin 1))
          + ((Cblk p l (t.val / 8) (t.val % 8) r : ℝ) : EReal)
    ∧ (outsAt0 m c t.val t.isLt).2 (ix2 r (0 : Fin 1))
        = (outsAt0 m c (t.val - 1) (Nat.lt_of_le_of_lt (Nat.sub_le _ _) t.isLt)).2 (ix2 r (0 : Fin 1))
          + ((Tblk p l (t.val / 8) (t.val % 8) r : ℝ) : EReal) := by
  rw [outsAt0_B m c t h0]
  constructor
  · dsimp only
    rw [out_B4, pay1_apply, pay9_eq, gsum_at m p l c hp hl t r]
  · dsimp only
    rw [out_B5, pay2_apply, tsum_at m p l c hp hl t r]

include hp hl in
/-- After point n, row r of the two output blocks of row block n / 8 holds the sums over the column blocks 0 .. n % 8. -/
theorem acc_inv : ∀ (n : ℕ) (h : n < cfg0.N) (r : Fin 1024),
    (outsAt0 m c n h).1 (ix2 r (0 : Fin 1)) = ((∑ J ∈ Finset.range (n % 8 + 1), Cblk p l (n / 8) J r : ℝ) : EReal)
    ∧ (outsAt0 m c n h).2 (ix2 r (0 : Fin 1)) = ((∑ J ∈ Finset.range (n % 8 + 1), Tblk p l (n / 8) J r : ℝ) : EReal)
  | 0, h, r => by
    have s := stepA m p l c hp hl ⟨0, h⟩ rfl r
    simpa using s
  | n + 1, h, r => by
    by_cases h0 : (n + 1) % 8 = 0
    · have s := stepA m p l c hp hl ⟨n + 1, h⟩ h0 r
      dsimp only at s
      rw [h0] at s ⊢
      simpa using s
    · have s := stepB m p l c hp hl ⟨n + 1, h⟩ h0 r
      have ih := acc_inv n (Nat.lt_of_succ_lt h) r
      have e1 : (n + 1) / 8 = n / 8 := by omega
      have e2 : (n + 1) % 8 = n % 8 + 1 := by omega
      dsimp only at s
      rw [e1, e2] at s
      refine ⟨?_, ?_⟩
      · rw [e1, e2, Finset.sum_range_succ, EReal.coe_add, ← ih.1]
        exact s.1
      · rw [e1, e2, Finset.sum_range_succ, EReal.coe_add, ← ih.2]
        exact s.2

end Acc

end Cert.KernelIdeal.KVal

end
-- ==== Proof.LibChunks.lean ====
/-
  A sum over n = a * b terms, taken in a chunks of b consecutive terms.
-/
import Mathlib.Algebra.BigOperators.Fin
import Mathlib.Data.Fintype.BigOperators
import Mathlib.Logic.Equiv.Fin.Basic
import Mathlib.Tactic.Ring

namespace Cert.LibChunks

open scoped BigOperators

/-- Inside chunk i < a, the position b * i + j with j < b lies below a * b. -/
theorem chunk_lt {a b : ℕ} (i : Fin a) (j : Fin b) : b * i.val + j.val < a * b :=
  calc b * i.val + j.val < b * i.val + b := Nat.add_lt_add_left j.isLt _
    _ = b * (i.val + 1) := by ring
    _ ≤ b * a := Nat.mul_le_mul_left b (Nat.succ_le_of_lt i.isLt)
    _ = a * b := Nat.mul_comm b a

/-- A sum over n = a * b terms is the sum over the a chunks of b consecutive terms: chunk i holds the terms at
    the positions b * i + j for j < b.  The position is written modulo n, so that it is an index of Fin n with
    no bound to prove; inside the ranges it is b * i + j itself.  The bijection is the one between pairs (i, j)
    and positions j + b * i below a * b. -/
theorem sum_chunks {M : Type*} [AddCommMonoid M] {n : ℕ} (a b : ℕ) (hn : n = a * b) (hpos : 0 < n) (f : Fin n → M) :
    ∑ x, f x = ∑ i ∈ Finset.range a, ∑ j : Fin b, f ⟨(b * i + j.val) % n, Nat.mod_lt _ hpos⟩ := by
  subst hn
  have key : ∀ (i : Fin a) (j : Fin b), finProdFinEquiv (i, j)
      = (⟨(b * i.val + j.val) % (a * b), Nat.mod_lt _ hpos⟩ : Fin (a * b)) := by
    intro i j
    apply Fin.ext
    show j.val + b * i.val = (b * i.val + j.val) % (a * b)
    rw [Nat.mod_eq_of_lt (chunk_lt i j), Nat.add_comm]
  calc ∑ x, f x = ∑ q : Fin a × Fin b, f (finProdFinEquiv q) := (Equiv.sum_comp finProdFinEquiv f).symm
    _ = ∑ i : Fin a, ∑ j : Fin b, f (finProdFinEquiv (i, j)) := Fintype.sum_prod_type _
    _ = ∑ i : Fin a, ∑ j : Fin b, f ⟨(b * i.val + j.val) % (a * b), Nat.mod_lt _ hpos⟩ := by
        simp only [key]
    _ = ∑ i ∈ Finset.range a, ∑ j : Fin b, f ⟨(b * i + j.val) % (a * b), Nat.mod_lt _ hpos⟩ :=
        Fin.sum_univ_eq_sum_range
          (fun i => ∑ j : Fin b, f ⟨(b * i + j.val) % (a * b), Nat.mod_lt _ hpos⟩) a

end Cert.LibChunks
-- ==== Proof.KFinal.lean ====
/-
  From the blocks to the two output arrays.  Row block I is written back once, after its last column block
  (point 8 * I + 7), when row r holds the sums over all eight column blocks: the whole row sum of C, respectively
  of T, for row 1024 * I + r.  The eight write-backs cover the array, so the gradient array ends as the column
  of the G k and the hinge array as the column of the Trow k.
-/
import proofs.«118529_j62191126446112_2_alg».proof.Proof.KAcc
import proofs.«118529_j62191126446112_2_alg».proof.Proof.LibChunks

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen PairRank

open scoped BigOperators

variable (m : (ℓ : Loc nD τ sig) → Buf (Elt Ideal) ℓ) (p l : Fin 8192 → ℝ) (c : Dev nD)

/-- A vector of 8192 real numbers as a column array [8192, 1] of extended reals. -/
def colE (g : Fin 8192 → ℝ) : S8192x1.Idx → EReal := fun y => ((g ⟨(y 0).val, (y 0).isLt⟩ : ℝ) : EReal)

theorem colE_ix2 (g : Fin 8192 → ℝ) (R : Fin 8192) (u : Fin 1) : colE g (ix2 R u) = ((g R : ℝ) : EReal) := rfl

/-- The eight column blocks of 1024 make up a whole row. -/
theorem blocks_row (f : Fin 8192 → ℝ) : ∑ J ∈ Finset.range 8, ∑ k : Fin 1024, f (at8192 J k) = ∑ j, f j :=
  (Cert.LibChunks.sum_chunks 8 1024 (by norm_num) (by norm_num) f).symm

theorem Cblk_sum (I : ℕ) (r : Fin 1024) : ∑ J ∈ Finset.range 8, Cblk p l I J r = G p l (at8192 I r) := by
  unfold Cblk G
  exact blocks_row (fun j => C p l (at8192 I r) j)

theorem Tblk_sum (I : ℕ) (r : Fin 1024) : ∑ J ∈ Finset.range 8, Tblk p l I J r = Trow p l (at8192 I r) := by
  unfold Tblk Trow
  exact blocks_row (fun j => PairRank.T p l (at8192 I r) j)

section Arrays

variable (hp : m ((c : Thread nD τ).loc main_arg0) = vecE p) (hl : m ((c : Thread nD τ).loc main_arg1) = vecE l)

/-- Row r of the output block at point t is row 1024 * (t / 8) + r of the output array. -/
theorem emb4 (t : Fin cfg0.N) (r : Fin 1024) :
    ((cfg0.win 4).blk t).view.emb (ix2 r (0 : Fin 1)) = ix2 (at8192 (t.val / 8) r) (0 : Fin 1) := by
  have hN : t.val < 64 := lt_of_lt_of_eq t.isLt (show cfg0.N = 64 from N_0)
  have hf := (idx_facts t).2.2.2.2.1
  funext ax
  apply Fin.ext
  match ax with
  | ⟨0, _⟩ =>
    show win0_4.index t 0 * 1024 + 1 * r.val = (at8192 (t.val / 8) r).val
    rw [hf.1, at8192_val (by omega)]; omega
  | ⟨1, _⟩ =>
    show win0_4.index t 1 * 1 + 1 * 0 = 0
    rw [hf.2]

theorem emb5 (t : Fin cfg0.N) (r : Fin 1024) :
    ((cfg0.win 5).blk t).view.emb (ix2 r (0 : Fin 1)) = ix2 (at8192 (t.val / 8) r) (0 : Fin 1) := by
  have hN : t.val < 64 := lt_of_lt_of_eq t.isLt (show cfg0.N = 64 from N_0)
  have hf := (idx_facts t).2.2.2.2.2
  funext ax
  apply Fin.ext
  match ax with
  | ⟨0, _⟩ =>
    show win0_5.index t 0 * 1024 + 1 * r.val = (at8192 (t.val / 8) r).val
    rw [hf.1, at8192_val (by omega)]; omega
  | ⟨1, _⟩ =>
    show win0_5.index t 1 * 1 + 1 * 0 = 0
    rw [hf.2]

include hp hl in
/-- What a write-back of the gradient block writes: its rows of the column of the G k. -/
theorem flushed4_eq (t : Fin cfg0.N) (hf : (cfg0.win 4).flush t = true) :
    (dats m 0 c).flushed 4 t = ((cfg0.win 4).blk t).view.read (Elt Ideal) (colE (G p l)) := by
  have h7 : t.val % 8 = 7 := (flush0_4 t).mp hf
  show (cfg0.win 4).cut (grid0.coords t) ((dats m 0 c).after 4 t) = _
  rw [after0_4]
  funext j
  obtain ⟨r, u, rfl⟩ : ∃ (r : Fin 1024) (u : Fin 1), j = ix2 r u := ⟨j 0, j 1, eq_ix2 j⟩
  obtain rfl : u = 0 := Subsingleton.elim _ _
  rw [View.read_apply]
  show (outsAt0 m c t.val t.isLt).1 (ix2 r (0 : Fin 1)) = colE (G p l) (((cfg0.win 4).blk t).view.emb (ix2 r (0 : Fin 1)))
  rw [(acc_inv m p l c hp hl t.val t.isLt r).1, h7, Cblk_sum, emb4]
  rfl

include hp hl in
/-- What a write-back of the hinge block writes: its rows of the column of the Trow k. -/
theorem flushed5_eq (t : Fin cfg0.N) (hf : (cfg0.win 5).flush t = true) :
    (dats m 0 c).flushed 5 t = ((cfg0.win 5).blk t).view.read (Elt Ideal) (colE (Trow p l)) := by
  have h7 : t.val % 8 = 7 := (flush0_5 t).mp hf
  show (cfg0.win 5).cut (grid0.coords t) ((dats m 0 c).after 5 t) = _
  rw [after0_5]
  funext j
  obtain ⟨r, u, rfl⟩ : ∃ (r : Fin 1024) (u : Fin 1), j = ix2 r u := ⟨j 0, j 1, eq_ix2 j⟩
  obtain rfl : u = 0 := Subsingleton.elim _ _
  rw [View.read_apply]
  show (outsAt0 m c t.val t.isLt).2 (ix2 r (0 : Fin 1)) = colE (Trow p l) (((cfg0.win 5).blk t).view.emb (ix2 r (0 : Fin 1)))
  rw [(acc_inv m p l c hp hl t.val t.isLt r).2, h7, Tblk_sum, emb5]
  rfl

/-- An index of the gradient array is in point t's block iff each coordinate is in the block's range. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v4_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4_1).slice (win0_5.rect t)).set ↔ _
  rw [View.set_slice_whole, Rect.mem_set_unit]
  exact Iff.rfl

/-- Row R of the gradient array is written back by the last point of row block R / 1024. -/
theorem cover4 (i : S8192x1.Idx) : ∃ t : Fin cfg0.N, (cfg0.win 4).flush t = true ∧ i ∈ ((cfg0.win 4).blk t).view.set := by
  have h0 : (i 0).val < 8192 := (i 0).isLt
  have h1 : (i 1).val < 1 := (i 1).isLt
  have hN : cfg0.N = 64 := N_0
  refine ⟨⟨8 * ((i 0).val / 1024) + 7, by rw [hN]; omega⟩, (flush0_4 _).mpr (by show (8 * ((i 0).val / 1024) + 7) % 8 = 7; omega), ?_⟩
  have hf := (idx_facts (⟨8 * ((i 0).val / 1024) + 7, by rw [hN]; omega⟩ : Fin cfg0.N)).2.2.2.2.1
  rw [mem_blk4]
  intro a
  match a with
  | ⟨0, _⟩ =>
    show win0_4.index _ 0 * 1024 ≤ (i 0).val ∧ (i 0).val < win0_4.index _ 0 * 1024 + 1024
    rw [hf.1]
    show (8 * ((i 0).val / 1024) + 7) / 8 * 1024 ≤ (i 0).val ∧ (i 0).val < (8 * ((i 0).val / 1024) + 7) / 8 * 1024 + 1024
    omega
  | ⟨1, _⟩ =>
    show win0_4.index _ 1 * 1 ≤ (i 1).val ∧ (i 1).val < win0_4.index _ 1 * 1 + 1
    rw [hf.2]; omega

theorem cover5 (i : S8192x1.Idx) : ∃ t : Fin cfg0.N, (cfg0.win 5).flush t = true ∧ i ∈ ((cfg0.win 5).blk t).view.set := by
  have h0 : (i 0).val < 8192 := (i 0).isLt
  have h1 : (i 1).val < 1 := (i 1).isLt
  have hN : cfg0.N = 64 := N_0
  refine ⟨⟨8 * ((i 0).val / 1024) + 7, by rw [hN]; omega⟩, (flush0_5 _).mpr (by show (8 * ((i 0).val / 1024) + 7) % 8 = 7; omega), ?_⟩
  have hf := (idx_facts (⟨8 * ((i 0).val / 1024) + 7, by rw [hN]; omega⟩ : Fin cfg0.N)).2.2.2.2.2
  rw [mem_blk5]
  intro a
  match a with
  | ⟨0, _⟩ =>
    show win0_5.index _ 0 * 1024 ≤ (i 0).val ∧ (i 0).val < win0_5.index _ 0 * 1024 + 1024
    rw [hf.1]
    show (8 * ((i 0).val / 1024) + 7) / 8 * 1024 ≤ (i 0).val ∧ (i 0).val < (8 * ((i 0).val / 1024) + 7) / 8 * 1024 + 1024
    omega
  | ⟨1, _⟩ =>
    show win0_5.index _ 1 * 1 ≤ (i 1).val ∧ (i 1).val < win0_5.index _ 1 * 1 + 1
    rw [hf.2]; omega

include hp hl in
/-- The gradient array after the run: the column of the row sums of C. -/
theorem final4 : (dats m 0 c).arrAt 4 cfg0.N = colE (G p l) :=
  (dats m 0 c).arrAt_eq_of_cover 4 (colE (G p l)) (flushed4_eq m p l c hp hl) cover4

include hp hl in
/-- The hinge array after the run: the column of the row sums of T. -/
theorem final5 : (dats m 0 c).arrAt 5 cfg0.N = colE (Trow p l) :=
  (dats m 0 c).arrAt_eq_of_cover 5 (colE (Trow p l)) (flushed5_eq m p l c hp hl) cover5

end Arrays

end Cert.KernelIdeal.KVal

end
-- ==== Proof.KTailDef.lean ====
/-
  The host lines after the region, as one function of the two output arrays g4 (gradient column) and g5 (hinge
  column) and the two argument vectors x0 (predictions) and x1 (labels):

    1 * (∑ (x0 - x1)^2 / 8192)
      + ((2^(-12) * sqrt (∑ (x0 - x1)^2)) / (sqrt (∑ g4^2) + eps)) * ((∑ g5 - 16384) / 2)
-/
import proofs.«118529_j62191126446112_2_alg».proof.Proof.KFinal

noncomputable section

open Idealize.ShloMosaic

namespace Cert.KernelIdeal.KVal

open Cert.KernelIdeal Cert.KernelIdeal.Gen

/-- The scalar the host lines after the region compute. -/
def tailK (g4 g5 : FVec Ideal S8192x1 .f32) (x0 x1 : FVec Ideal S8192 .f32) : FVec Ideal S_ .f32 :=
  addf
    (mulf (constant (F := Ideal) S_ .f32 0x3F800000#32)
      (Host.divf (F := Ideal)
        (Host.reduceAdd (F := Ideal) (mulf (subf x0 x1) (subf x0 x1)) (constant (F := Ideal) S_ .f32 0x00000000#32) reducesTo_S8192_S_d0 h_S_)
        (constant (F := Ideal) S_ .f32 0x46000000#32)))
    (mulf
      (Host.divf (F := Ideal)
        (mulf (constant (F := Ideal) S_ .f32 0x39800000#32)
          (Host.sqrt (F := Ideal)
            (Host.reduceAdd (F := Ideal) (mulf (subf x0 x1) (subf x0 x1)) (constant (F := Ideal) S_ .f32 0x00000000#32) reducesTo_S8192_S_d0 h_S_)))
        (addf
          (Host.sqrt (F := Ideal)
            (Host.reduceAdd (F := Ideal)
              (mulf (shapeCast S8192 g4 shapeCasts_S8192x1_S8192) (shapeCast S8192 g4 shapeCasts_S8192x1_S8192))
              (constant (F := Ideal) S_ .f32 0x00000000#32) reducesTo_S8192_S_d0 h_S_))
          (constant (F := Ideal) S_ .f32 0x38D1B717#32)))
      (Host.divf (F := Ideal)
        (subf
          (Host.reduceAdd (F := Ideal) (shapeCast S8192 g5 shapeCasts_S8192x1_S8192) (constant (F := Ideal) S_ .f32 0x00000000#32)
            reducesTo_S8192_S_d0 h_S_)
          (constant (F := Ideal) S_ .f32 0x46800000#32))
        (constant (F := Ideal) S_ .f32 0x40000000#32)))

end Cert.KernelIdeal.KVal

end
-- ==== Proof.KTail.lean ====
/-
  The kernel program's result.  After the region, the host lines read the two output arrays and the two argument
  vectors and compute the scalar tailK of them; the region leaves the argument vectors as launched.
-/
import proofs.«118529_j62191126446112_2_alg».proof.Proof.KTailDef
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.KVal

open Cert.KernelIdeal Cert.KernelIdeal.Gen PairRank

variable (m : (ℓ : Loc nD τ sig) → Buf (Elt Ideal) ℓ)

set_option maxHeartbeats 8000000 in
set_option maxRecDepth 8192 in
/-- The host lines after the region compute tailK of the output arrays as the region left them and of the
    argument vectors as launched. -/
theorem tail_eq (c : Dev nD) :
    Pipeline.afterTail₀ cfgs (dats m) 0 (V0 m) [hostOps1] c main_v25
      = tailK ((dats m 0 c).arrAt 4 cfg0.N) ((dats m 0 c).arrAt 5 cfg0.N)
          (m ((c : Thread nD τ).loc main_arg0)) (m ((c : Thread nD τ).loc main_arg1)) := by
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e4 : Pipeline.withArrays (cfgs 0).spec c (V0 m c) (fun w => (dats m 0 c).arrAt w (cfgs 0).N) (Proc.devRef .tc main_v4_0)
      = (dats m 0 c).arrAt 4 cfg0.N :=
    Pipeline.withArrays_arr spec0 launch0.win.arr_inj c _ _ 4
  have e5 : Pipeline.withArrays (cfgs 0).spec c (V0 m c) (fun w => (dats m 0 c).arrAt w (cfgs 0).N) (Proc.devRef .tc main_v4_1)
      = (dats m 0 c).arrAt 5 cfg0.N :=
    Pipeline.withArrays_arr spec0 launch0.win.arr_inj c _ _ 5
  unfold Pipeline.afterTail₀
  show StableHlo.after hostOps1 _ (Proc.devRef .tc main_v25) = _
  after_results_simp
  rw [e0, e1, e4, e5]
  rfl

end Cert.KernelIdeal.KVal

end
-- ==== Proof.PairLaws.lean ====
/-
  The identities over the reals that join the sums over the full n x n grid to the sums over the strict upper
  triangle i < j.  X is symmetric and S antisymmetric with zero diagonal, so T is symmetric with diagonal 2 and
  C is antisymmetric with zero diagonal.
-/
import proofs.«118529_j62191126446112_2_alg».proof.Proof.Spec

noncomputable section

namespace PairRank

open scoped BigOperators

variable {n : ℕ}

/-- The sign is an odd function. -/
theorem sg_neg (d : ℝ) : sg (-d) = - sg d := by
  unfold sg
  rw [Left.sign_neg, SignType.coe_neg]

/-- The sign of 0 is 0. -/
theorem sg_zero : sg 0 = 0 := by
  unfold sg
  rw [sign_zero, SignType.coe_zero]

/-- S is antisymmetric: l i - l j = -(l j - l i) and the sign is odd. -/
theorem S_antisymm (l : Fin n → ℝ) (i j : Fin n) : S l j i = - S l i j := by
  unfold S
  have h : l i - l j = -(l j - l i) := by ring
  rw [h, sg_neg]

/-- The diagonal of S is sign 0 = 0. -/
theorem S_self (l : Fin n → ℝ) (i : Fin n) : S l i i = 0 := by
  unfold S
  rw [sub_self, sg_zero]

/-- X is symmetric: both factors of the product change sign. -/
theorem X_symm (p l : Fin n → ℝ) (i j : Fin n) : X p l j i = X p l i j := by
  unfold X
  rw [S_antisymm l i j]
  ring

/-- The diagonal of X is 0 * 0 + 2 = 2. -/
theorem X_self (p l : Fin n → ℝ) (i : Fin n) : X p l i i = 2 := by
  unfold X
  rw [S_self]
  ring

/-- T is a function of X alone, so it is symmetric. -/
theorem T_symm (p l : Fin n → ℝ) (i j : Fin n) : T p l j i = T p l i j := by
  unfold T
  rw [X_symm p l i j]

/-- The diagonal of T is the hinge of 2, which is 2. -/
theorem T_self (p l : Fin n → ℝ) (i : Fin n) : T p l i i = 2 := by
  unfold T
  rw [X_self]
  norm_num

/-- C is antisymmetric: its condition is symmetric and its value antisymmetric. -/
theorem C_antisymm (p l : Fin n → ℝ) (i j : Fin n) : C p l j i = - C p l i j := by
  unfold C
  rw [X_symm p l i j, S_antisymm l i j]
  split_ifs <;> simp

/-- The diagonal of C is 0, since the diagonal of S is. -/
theorem C_self (p l : Fin n → ℝ) (i : Fin n) : C p l i i = 0 := by
  unfold C
  rw [S_self]
  simp

/-- A sum over all j splits at k into the part above k, the part below k and the term at k. -/
theorem split_row (f : Fin n → ℝ) (k : Fin n) :
    ∑ j, f j = (∑ j, if k < j then f j else 0) + (∑ j, if j < k then f j else 0) + f k := by
  have h : ∀ j, f j =
      (if k < j then f j else 0) + (if j < k then f j else 0) + (if j = k then f j else 0) := by
    intro j
    rcases lt_trichotomy k j with h | h | h
    · simp [h, lt_asymm h, h.ne']
    · subst h
      simp
    · simp [h, lt_asymm h, h.ne]
  calc ∑ j, f j
      = ∑ j, ((if k < j then f j else 0) + (if j < k then f j else 0)
          + (if j = k then f j else 0)) := Finset.sum_congr rfl (fun j _ => h j)
    _ = (∑ j, if k < j then f j else 0) + (∑ j, if j < k then f j else 0) + f k := by
        rw [Finset.sum_add_distrib, Finset.sum_add_distrib, Finset.sum_ite_eq']
        simp

/-- The sum of T over the strict upper triangle.  The lower triangle has the same sum (swap the order of
    summation and use the symmetry of T), the diagonal contributes 2 per index, and the three parts make up
    the sum of all rows. -/
theorem tri_sum (p l : Fin n → ℝ) :
    ∑ i, ∑ j, (if i < j then T p l i j else 0) = ((∑ i, Trow p l i) - 2 * (n : ℝ)) / 2 := by
  have hB : ∑ i, ∑ j, (if j < i then T p l i j else 0)
      = ∑ i, ∑ j, (if i < j then T p l i j else 0) := by
    calc ∑ i, ∑ j, (if j < i then T p l i j else 0)
        = ∑ j, ∑ i, (if j < i then T p l i j else 0) := Finset.sum_comm
      _ = ∑ i, ∑ j, (if i < j then T p l i j else 0) := by
          refine Finset.sum_congr rfl (fun i _ => Finset.sum_congr rfl (fun j _ => ?_))
          rw [T_symm p l i j]
  have hrow : ∀ i, Trow p l i
      = (∑ j, if i < j then T p l i j else 0) + (∑ j, if j < i then T p l i j else 0) + 2 := by
    intro i
    have h : ∑ j, T p l i j = (∑ j, if i < j then T p l i j else 0)
        + (∑ j, if j < i then T p l i j else 0) + T p l i i := split_row (fun j => T p l i j) i
    rw [T_self] at h
    exact h
  have htot : ∑ i, Trow p l i
      = (∑ i, ∑ j, if i < j then T p l i j else 0) + (∑ i, ∑ j, if j < i then T p l i j else 0)
        + 2 * (n : ℝ) := by
    simp only [hrow, Finset.sum_add_distrib, Finset.sum_const, Finset.card_univ, Fintype.card_fin,
      nsmul_eq_mul]
    ring
  rw [htot, hB]
  ring

/-- Row k of C.  Split the row at k: the part below k is minus the column sum over i < k by antisymmetry,
    and the diagonal term is 0. -/
theorem grad_row (p l : Fin n → ℝ) (k : Fin n) :
    (∑ j, (if k < j then C p l k j else 0)) - (∑ i, (if i < k then C p l i k else 0)) = G p l k := by
  have h : ∑ j, C p l k j = (∑ j, if k < j then C p l k j else 0)
      + (∑ j, if j < k then C p l k j else 0) + C p l k k := split_row (fun j => C p l k j) k
  rw [C_self, add_zero] at h
  have hneg : ∑ j, (if j < k then C p l k j else 0)
      = - ∑ i, (if i < k then C p l i k else 0) := by
    rw [← Finset.sum_neg_distrib]
    refine Finset.sum_congr rfl (fun j _ => ?_)
    rw [C_antisymm p l j k]
    split_ifs <;> simp
  unfold G
  rw [h, hneg]
  ring

/-- Scaling every entry by c ≥ 0 scales the Euclidean norm by c. -/
theorem sqrt_scale (c : ℝ) (hc : 0 ≤ c) (d : Fin n → ℝ) :
    Real.sqrt (∑ k, (c * d k) * (c * d k)) = c * Real.sqrt (∑ k, d k * d k) := by
  have h : ∑ k, (c * d k) * (c * d k) = (c * c) * ∑ k, d k * d k := by
    rw [Finset.mul_sum]
    refine Finset.sum_congr rfl (fun k _ => ?_)
    ring
  rw [h, Real.sqrt_mul (mul_self_nonneg c), Real.sqrt_mul_self hc]

end PairRank

end
-- ==== Proof.RefSide.lean ====
/-
  The reference program's three values that the certificate compares, as real numbers.  Each stage is read at
  explicit coordinates: the pairwise stages at (i, j) are the real pairwise terms S, X, T of the labels and
  predictions, the mask is 1 exactly where i < j, and the three sums are finite real sums, so the sum over the
  strict upper triangle, the gradient of that sum and the norm of the gradient of the mean square error come out
  as the closed forms below.
-/
import proofs.«118529_j62191126446112_2_alg».proof.Proof.Gen.ReferenceIdeal.Read
import proofs.«118529_j62191126446112_2_alg».proof.Proof.PairLaws
import proofs.«118529_j62191126446112_2_alg».proof.Proof.Lift
import Idealize.ShloMosaic.Lib.ValueIdx

noncomputable section

namespace Cert.ReferenceIdeal.RefValue

open Cert.ReferenceIdeal Cert.ReferenceIdeal.Read PairRank Idealize.ShloMosaic Idealize.ShloMosaic.ValueIdx

open scoped BigOperators

/-! ## Indices -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The pairwise stages of the loss at (i, j) -/

/-- %8 at (i, j) is p j - p i. -/
theorem v8_at (p : Fin 8192 → ℝ) (i j : Fin 8192) :
    val_main_v8 (F := Ideal) (vecE p) (ix2 i j) = ((p j - p i : ℝ) : EReal) := by
  rw [val_main_v8_apply, val_main_v6_apply, val_main_v7_apply, val_main_v4_apply, val_main_v5_apply,
    Ideal.subf_def, EReal.coe_sub]
  rfl

/-- %13 at (i, j) is l j - l i. -/
theorem v13_at (l : Fin 8192 → ℝ) (i j : Fin 8192) :
    val_main_v13 (F := Ideal) (vecE l) (ix2 i j) = ((l j - l i : ℝ) : EReal) := by
  rw [val_main_v13_apply, val_main_v11_apply, val_main_v12_apply, val_main_v9_apply, val_main_v10_apply,
    Ideal.subf_def, EReal.coe_sub]
  rfl

/-- %14 at (i, j) is the sign of l j - l i. -/
theorem v14_at (l : Fin 8192 → ℝ) (i j : Fin 8192) :
    val_main_v14 (F := Ideal) (vecE l) (ix2 i j) = ((S l i j : ℝ) : EReal) := by
  rw [val_main_v14_apply, v13_at, Ideal.hostUnary_sign_def, Ideal.sign_coe]
  rfl

/-- %18 at (i, j) is the margin term X i j. -/
theorem v18_at (p l : Fin 8192 → ℝ) (i j : Fin 8192) :
    val_main_v18 (F := Ideal) (vecE p) (vecE l) (ix2 i j) = ((X p l i j : ℝ) : EReal) := by
  rw [val_main_v18_apply, val_main_v16_apply, val_main_v15_apply, v8_at, v14_at, val_main_v17_apply,
    val_main_cst_1_apply, Ideal.addf_def, Ideal.mulf_def, Ideal.hostNegf_def, Ideal.negf_def, Ideal.ofBits_def,
    PairRank.ofBits_two, ← EReal.coe_neg, ← EReal.coe_mul, ← EReal.coe_add]
  congr 1
  unfold PairRank.X
  ring

/-- %19 at (i, j) is the hinge T i j. -/
theorem v19_at (p l : Fin 8192 → ℝ) (i j : Fin 8192) :
    val_main_v19 (F := Ideal) (vecE p) (vecE l) (ix2 i j) = ((T p l i j : ℝ) : EReal) := by
  rw [val_main_v19_apply, v18_at, val_main_call0_v0_apply, val_main_call0_cst_apply, Ideal.maximumf_def,
    Ideal.ofBits_def, PairRank.ofBits_zero, max_coe]
  congr 1
  unfold PairRank.T
  split_ifs with h
  · exact max_eq_left h.le
  · exact max_eq_right (not_lt.mp h)

/-! ## The mask of the strict upper triangle -/

/-- A natural number below 8192, as a 32-bit word read signed, is itself. -/
theorem toInt_ofNat_small (a : ℕ) (ha : a < 8192) : (BitVec.ofNat 32 a).toInt = (a : ℤ) := by
  have h1 : (BitVec.ofNat 32 a).toNat = a := by
    rw [BitVec.toNat_ofNat]
    exact Nat.mod_eq_of_lt (by omega)
  rw [BitVec.toInt_eq_toNat_of_lt (by rw [h1]; omega), h1]

/-- The signed comparison a + 0 ≥ b of two such words is the comparison of the numbers. -/
theorem cmpi_sge_small (a b : ℕ) (ha : a < 8192) (hb : b < 8192) :
    IntOp.cmpi .sge (IntOp.addi (BitVec.ofNat 32 a) 0#32) (BitVec.ofNat 32 b)
      = if b ≤ a then 1#1 else 0#1 := by
  have h : (BitVec.ofNat 32 b).sle (BitVec.ofNat 32 a) = decide (b ≤ a) := by
    rw [BitVec.sle_eq_decide, toInt_ofNat_small a ha, toInt_ofNat_small b hb]
    simp
  show BitVec.ofBool ((BitVec.ofNat 32 b).sle (BitVec.ofNat 32 a + 0#32)) = _
  rw [BitVec.add_zero, h]
  by_cases hba : b ≤ a
  · simp [hba]
  · simp [hba]

/-- The select of 0 where row ≥ column and 1 elsewhere is 1 exactly where i < j. -/
theorem mask_select (i j : Fin 8192) :
    Scalar.select (IntOp.cmpi .sge (IntOp.addi (BitVec.ofNat 32 i.val) 0#32) (BitVec.ofNat 32 j.val))
      (((0 : ℝ) : EReal)) (((1 : ℝ) : EReal)) = (((if i < j then 1 else 0 : ℝ)) : EReal) := by
  rw [cmpi_sge_small i.val j.val i.isLt j.isLt]
  by_cases h : i < j
  · have h' : ¬ j.val ≤ i.val := by
      have : i.val < j.val := h
      omega
    rw [if_neg h', select_zero, if_pos h]
  · have h' : j.val ≤ i.val := by
      have : ¬ i.val < j.val := h
      omega
    rw [if_pos h', select_one, if_neg h]

/-- %21 at (i, j) is 1 where i < j and 0 elsewhere. -/
theorem v21_at (i j : Fin 8192) :
    val_main_v21 (F := Ideal) (ix2 i j) = (((if i < j then 1 else 0 : ℝ)) : EReal) := by
  rw [val_main_v21_apply, val_main_call1_v4_apply, val_main_call1_v2_apply, val_main_call1_v0_apply,
    val_main_call1_v1_apply, val_main_call1_c_apply, val_main_call1_v3_apply, val_main_call1_v5_apply,
    val_main_call1_cst_apply, val_main_v20_apply, val_main_cst_2_apply, Ideal.ofBits_def, Ideal.ofBits_def,
    PairRank.ofBits_zero, PairRank.ofBits_one]
  exact mask_select i j

/-- %22 at (i, j) is T i j where i < j and 0 elsewhere. -/
theorem v22_at (p l : Fin 8192 → ℝ) (i j : Fin 8192) :
    val_main_v22 (F := Ideal) (vecE p) (vecE l) (ix2 i j)
      = (((if i < j then T p l i j else 0 : ℝ)) : EReal) := by
  rw [val_main_v22_apply, v19_at, v21_at, Ideal.mulf_def, ← EReal.coe_mul]
  congr 1
  split_ifs <;> simp

/-- The ranking loss: the sum of T over the strict upper triangle, in closed form. -/
theorem rank_eq (p l : Fin 8192 → ℝ) :
    val_main_v23 (F := Ideal) (vecE p) (vecE l)
      = fun _ => ((((∑ k, Trow p l k) - 2 * (8192 : ℝ)) / 2 : ℝ) : EReal) := by
  funext y
  rw [val_main_v23_apply, val_main_cst_3_apply, Ideal.ofBits_def, PairRank.ofBits_zero, sum_idx2]
  simp only [v22_at, coe_sum]
  rw [← EReal.coe_add, zero_add, tri_sum]
  norm_num

/-! ## The norm of the gradient of the mean square error -/

/-- %30 is 1 / 8192. -/
theorem v30_at (y : S_.Idx) : val_main_v30 (F := Ideal) y = (((1 : ℝ) / 8192 : ℝ) : EReal) := by
  rw [val_main_v30_apply, val_main_cst_7_apply, val_main_cst_8_apply, Ideal.hostDivf_def, Ideal.ofBits_def,
    Ideal.ofBits_def, PairRank.ofBits_one, PairRank.ofBits_8192, Ideal.div_coe (by norm_num), ← EReal.coe_mul,
    one_mul]

/-- %32 at k is (2 / 8192) * (p k - l k). -/
theorem v32_at (p l : Fin 8192 → ℝ) (k : Fin 8192) :
    val_main_v32 (F := Ideal) (vecE p) (vecE l) (ix1 k) = ((((2 : ℝ) / 8192) * (p k - l k) : ℝ) : EReal) := by
  rw [val_main_v32_apply, val_main_v31_apply, v30_at, val_main_v27_apply, val_main_v26_apply,
    val_main_cst_4_apply, val_main_v24_apply, vecE_ix1, vecE_ix1, Ideal.ofBits_def, PairRank.ofBits_two,
    Ideal.mulf_def, Ideal.mulf_def, Ideal.subf_def, ← EReal.coe_sub, ← EReal.coe_mul, ← EReal.coe_mul]
  congr 1
  ring

/-- The norm of the gradient of the mean square error: (2 / 8192) times the norm of p - l. -/
theorem g1_eq (p l : Fin 8192 → ℝ) :
    val_main_v33 (F := Ideal) (vecE p) (vecE l)
      = fun _ => ((((2 : ℝ) / 8192) * Real.sqrt (∑ k, (p k - l k) * (p k - l k)) : ℝ) : EReal) := by
  funext y
  rw [val_main_v33_apply, val_main_call2_v1_apply, val_main_call2_cst_apply, Ideal.ofBits_def,
    PairRank.ofBits_zero, sum_idx1]
  simp only [val_main_call2_v0_apply, v32_at, Ideal.mulf_def, ← EReal.coe_mul, coe_sum]
  rw [← EReal.coe_add, zero_add, Ideal.hostUnary_sqrt_def, Ideal.sqrt_coe,
    if_neg (not_lt.mpr (Finset.sum_nonneg (fun k _ => mul_self_nonneg _)))]
  congr 1
  exact sqrt_scale ((2 : ℝ) / 8192) (by norm_num) (fun k => p k - l k)

/-! ## The gradient of the ranking loss -/

/-- %38 at (i, j) is p j - p i. -/
theorem v38_at (p : Fin 8192 → ℝ) (i j : Fin 8192) :
    val_main_v38 (F := Ideal) (vecE p) (ix2 i j) = ((p j - p i : ℝ) : EReal) := by
  rw [val_main_v38_apply, val_main_v36_apply, val_main_v37_apply, val_main_v34_apply, val_main_v35_apply,
    Ideal.subf_def, EReal.coe_sub]
  rfl

/-- %43 at (i, j) is l j - l i. -/
theorem v43_at (l : Fin 8192 → ℝ) (i j : Fin 8192) :
    val_main_v43 (F := Ideal) (vecE l) (ix2 i j) = ((l j - l i : ℝ) : EReal) := by
  rw [val_main_v43_apply, val_main_v41_apply, val_main_v42_apply, val_main_v39_apply, val_main_v40_apply,
    Ideal.subf_def, EReal.coe_sub]
  rfl

/-- %44 at (i, j) is the sign of l j - l i. -/
theorem v44_at (l : Fin 8192 → ℝ) (i j : Fin 8192) :
    val_main_v44 (F := Ideal) (vecE l) (ix2 i j) = ((S l i j : ℝ) : EReal) := by
  rw [val_main_v44_apply, v43_at, Ideal.hostUnary_sign_def, Ideal.sign_coe]
  rfl

/-- %48 at (i, j) is the margin term X i j. -/
theorem v48_at (p l : Fin 8192 → ℝ) (i j : Fin 8192) :
    val_main_v48 (F := Ideal) (vecE p) (vecE l) (ix2 i j) = ((X p l i j : ℝ) : EReal) := by
  rw [val_main_v48_apply, val_main_v46_apply, val_main_v45_apply, v38_at, v44_at, val_main_v47_apply,
    val_main_cst_9_apply, Ideal.addf_def, Ideal.mulf_def, Ideal.hostNegf_def, Ideal.negf_def, Ideal.ofBits_def,
    PairRank.ofBits_two, ← EReal.coe_neg, ← EReal.coe_mul, ← EReal.coe_add]
  congr 1
  unfold PairRank.X
  ring

/-- %54 at (i, j) is 1 where i < j and 0 elsewhere. -/
theorem v54_at (i j : Fin 8192) :
    val_main_v54 (F := Ideal) (ix2 i j) = (((if i < j then 1 else 0 : ℝ)) : EReal) := by
  rw [val_main_v54_apply, val_main_call4_v4_apply, val_main_call4_v2_apply, val_main_call4_v0_apply,
    val_main_call4_v1_apply, val_main_call4_c_apply, val_main_call4_v3_apply, val_main_call4_v5_apply,
    val_main_call4_cst_apply, val_main_v53_apply, val_main_cst_12_apply, Ideal.ofBits_def, Ideal.ofBits_def,
    PairRank.ofBits_zero, PairRank.ofBits_one]
  exact mask_select i j

/-- %61 at (i, j) is C i j where i < j and 0 elsewhere: the mask where the margin term is positive, times the
    label sign. -/
theorem v61_at (p l : Fin 8192 → ℝ) (i j : Fin 8192) :
    val_main_v61 (F := Ideal) (vecE p) (vecE l) (ix2 i j)
      = (((if i < j then C p l i j else 0 : ℝ)) : EReal) := by
  rw [val_main_v61_apply, val_main_v60_apply, val_main_v51_apply, v48_at, val_main_v50_apply,
    val_main_cst_10_apply, val_main_v58_apply, val_main_v57_apply, val_main_cst_14_apply, v54_at,
    val_main_v59_apply, val_main_cst_15_apply, v44_at, Ideal.ofBits_def, Ideal.ofBits_def,
    PairRank.ofBits_zero, PairRank.ofBits_one, Ideal.mulf_def, Ideal.mulf_def, ← EReal.coe_mul]
  show Scalar.select (Ideal.cmp .ogt ((X p l i j : ℝ) : EReal) ((0 : ℝ) : EReal)) _ _ * _ = _
  rw [select_ogt_coe]
  unfold PairRank.C
  by_cases hX : 0 < X p l i j
  · rw [if_pos hX, if_pos hX, ← EReal.coe_mul]
    congr 1
    split_ifs <;> simp
  · rw [if_neg hX, if_neg hX, ← EReal.coe_mul]
    congr 1
    split_ifs <;> simp

/-- %62 at (i, j) is minus that. -/
theorem v62_at (p l : Fin 8192 → ℝ) (i j : Fin 8192) :
    val_main_v62 (F := Ideal) (vecE p) (vecE l) (ix2 i j)
      = ((-(if i < j then C p l i j else 0) : ℝ) : EReal) := by
  rw [val_main_v62_apply, v61_at, Ideal.hostNegf_def, Ideal.negf_def, ← EReal.coe_neg]

/-- %65 at (i, j) is C i j where i < j and 0 elsewhere again. -/
theorem v65_at (p l : Fin 8192 → ℝ) (i j : Fin 8192) :
    val_main_v65 (F := Ideal) (vecE p) (vecE l) (ix2 i j)
      = (((if i < j then C p l i j else 0 : ℝ)) : EReal) := by
  rw [val_main_v65_apply, v62_at, Ideal.hostNegf_def, Ideal.negf_def, ← EReal.coe_neg, neg_neg]

theorem idx63 (k i : Fin 8192) : idx_main_v63 (ix1 k) i = ix2 i k := by
  funext a
  match a with
  | ⟨0, _⟩ => rfl
  | ⟨1, _⟩ => rfl

theorem idx66 (k j : Fin 8192) : idx_main_v66 (ix1 k) j = ix2 k j := by
  funext a
  match a with
  | ⟨0, _⟩ => rfl
  | ⟨1, _⟩ => rfl

/-- %63 at k is minus the sum of column k of the masked C. -/
theorem v63_at (p l : Fin 8192 → ℝ) (k : Fin 8192) :
    val_main_v63 (F := Ideal) (vecE p) (vecE l) (ix1 k)
      = ((∑ i, -(if i < k then C p l i k else 0) : ℝ) : EReal) := by
  rw [val_main_v63_apply, val_main_cst_16_apply, Ideal.ofBits_def, PairRank.ofBits_zero]
  simp only [idx63, v62_at, coe_sum]
  rw [← EReal.coe_add, zero_add]

/-- %66 at k is the sum of row k of the masked C. -/
theorem v66_at (p l : Fin 8192 → ℝ) (k : Fin 8192) :
    val_main_v66 (F := Ideal) (vecE p) (vecE l) (ix1 k)
      = ((∑ j, (if k < j then C p l k j else 0) : ℝ) : EReal) := by
  rw [val_main_v66_apply, val_main_cst_17_apply, Ideal.ofBits_def, PairRank.ofBits_zero]
  simp only [idx66, v65_at, coe_sum]
  rw [← EReal.coe_add, zero_add]

theorem idx69 (k : Fin 8192) : idx_main_v64 (idx_main_v69 (ix1 k) (0 : Fin 1)) = ix1 k := by
  funext a
  match a with
  | ⟨0, _⟩ =>
    apply Fin.ext
    show (0 : ℕ) * 8192 + k.val = k.val
    omega

theorem idx68 (k : Fin 8192) : idx_main_v67 (idx_main_v68 (ix1 k) (0 : Fin 1)) = ix1 k := by
  funext a
  match a with
  | ⟨0, _⟩ =>
    apply Fin.ext
    show k.val * 1 + (0 : ℕ) = k.val
    omega

/-- %69 at k: the reshape to one row and the sum over that row's one index give %63 at k. -/
theorem v69_at (p l : Fin 8192 → ℝ) (k : Fin 8192) :
    val_main_v69 (F := Ideal) (vecE p) (vecE l) (ix1 k)
      = ((∑ i, -(if i < k then C p l i k else 0) : ℝ) : EReal) := by
  rw [val_main_v69_apply, val_main_cst_19_apply, Ideal.ofBits_def, PairRank.ofBits_zero, Fin.sum_univ_one,
    val_main_v64_apply, idx69, v63_at, ← EReal.coe_add, zero_add]

/-- %68 at k: the reshape to one column and the sum over that column's one index give %66 at k. -/
theorem v68_at (p l : Fin 8192 → ℝ) (k : Fin 8192) :
    val_main_v68 (F := Ideal) (vecE p) (vecE l) (ix1 k)
      = ((∑ j, (if k < j then C p l k j else 0) : ℝ) : EReal) := by
  rw [val_main_v68_apply, val_main_cst_18_apply, Ideal.ofBits_def, PairRank.ofBits_zero, Fin.sum_univ_one,
    val_main_v67_apply, idx68, v66_at, ← EReal.coe_add, zero_add]

/-- The gradient of the ranking loss in p k is the row sum G k of C. -/
theorem grad_eq (p l : Fin 8192 → ℝ) :
    val_main_v70 (F := Ideal) (vecE p) (vecE l) = vecE (G p l) := by
  funext y
  obtain ⟨k, rfl⟩ : ∃ k, y = ix1 k := ⟨y 0, eq_ix1 y⟩
  rw [val_main_v70_apply, v68_at, v69_at, Ideal.addf_def, ← EReal.coe_add, vecE_ix1]
  congr 1
  rw [← grad_row p l k, Finset.sum_neg_distrib]
  ring

end Cert.ReferenceIdeal.RefValue

end
-- ==== Proof.Bridge.lean ====
/-
  The equality that joins the two programs.  With the kernel's two output arrays the columns of the row sums G k
  and Trow k, the scalar its host lines compute and the reference's result are one and the same expression:
  the mean square error term is spelled alike on both sides, and the other three components of each side are
  the same real numbers, namely the norm of p - l scaled by 2 / 8192, the norm of the vector of the G k, and
  half of the total of the Trow k less 2 * 8192.
-/
import proofs.«118529_j62191126446112_2_alg».proof.Proof.KTailDef
import proofs.«118529_j62191126446112_2_alg».proof.Proof.RefSide

noncomputable section

namespace Cert.Proof.Bridge

open Idealize.ShloMosaic Idealize.ShloMosaic.ValueIdx PairRank

open scoped BigOperators

/-- The sum of a whole vector from an initial value, at the one index of the zero-axis result. -/
theorem reduceAdd_total (x : FVec Ideal ⟨1, ![8192]⟩ .f32) (init : FVec Ideal ⟨0, ![]⟩ .f32)
    (h : (⟨1, ![8192]⟩ : Shape).ReducesTo [0] ⟨0, ![]⟩) (hu : 0 < (⟨0, ![]⟩ : Shape).numel)
    (y : (⟨0, ![]⟩ : Shape).Idx) :
    Host.reduceAdd (F := Ideal) x init h hu y = init (Shape.Idx.first hu) + ∑ k : Fin 8192, x (ix1 k) := by
  simp only [Host.reduceAdd, Ideal.hostReduceAdd_def]
  rw [Ideal.hostReduceAdd_total h (fun b => b.elim0) x _ y, Cert.ReferenceIdeal.RefValue.sum_idx1 x]

/-- The square root of an array, read at an index. -/
theorem hostSqrt_apply {s : Shape} (x : FVec Ideal s .f32) (i : s.Idx) :
    Host.sqrt (F := Ideal) x i = Ideal.sqrt (x i) := rfl

/-- An [a, 1] array cast to [a] reads, at i, the operand at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The column of the g k, read as a vector, is the vector of the g k. -/
theorem shapeCast_col (g : Fin 8192 → ℝ) (h : (⟨2, ![8192, 1]⟩ : Shape).ShapeCasts ⟨1, ![8192]⟩) :
    shapeCast ⟨1, ![8192]⟩ (Cert.KernelIdeal.KVal.colE g) h = vecE g := by
  funext i
  obtain ⟨k, rfl⟩ : ∃ k, i = ix1 k := ⟨i 0, eq_ix1 i⟩
  rw [shapeCast_a1_a_apply]
  rfl

/-- Half of the total of the Trow k less 16384 = 2 * 8192. -/
theorem hinge_total (p l : Fin 8192 → ℝ) (h : (⟨1, ![8192]⟩ : Shape).ReducesTo [0] ⟨0, ![]⟩)
    (hu : 0 < (⟨0, ![]⟩ : Shape).numel) :
    Host.divf (F := Ideal)
        (subf
          (Host.reduceAdd (F := Ideal) (vecE (Trow p l)) (constant (F := Ideal) ⟨0, ![]⟩ .f32 0x00000000#32) h hu)
          (constant (F := Ideal) ⟨0, ![]⟩ .f32 0x46800000#32))
        (constant (F := Ideal) ⟨0, ![]⟩ .f32 0x40000000#32)
      = fun _ => ((((∑ k, Trow p l k) - 2 * (8192 : ℝ)) / 2 : ℝ) : EReal) := by
  funext y
  show Ideal.div
      (Host.reduceAdd (F := Ideal) (vecE (Trow p l)) (constant (F := Ideal) ⟨0, ![]⟩ .f32 0x00000000#32) h hu y
        - Ideal.ofBits .f32 0x46800000#32)
      (Ideal.ofBits .f32 0x40000000#32) = _
  rw [reduceAdd_total]
  show Ideal.div
      (Ideal.ofBits .f32 0x00000000#32 + ∑ k : Fin 8192, ((Trow p l k : ℝ) : EReal)
        - Ideal.ofBits .f32 0x46800000#32)
      (Ideal.ofBits .f32 0x40000000#32) = _
  rw [coe_sum, PairRank.ofBits_zero, PairRank.ofBits_16384, PairRank.ofBits_two, Ideal.div_coe (by norm_num),
    ← EReal.coe_add, ← EReal.coe_sub, ← EReal.coe_mul]
  congr 1
  ring

/-- The norm of p - l scaled by 2 / 8192, as the kernel's host lines spell it. -/
theorem g1_kernel (p l : Fin 8192 → ℝ) (h : (⟨1, ![8192]⟩ : Shape).ReducesTo [0] ⟨0, ![]⟩)
    (hu : 0 < (⟨0, ![]⟩ : Shape).numel) :
    mulf (constant (F := Ideal) ⟨0, ![]⟩ .f32 0x39800000#32)
        (Host.sqrt (F := Ideal)
          (Host.reduceAdd (F := Ideal) (mulf (subf (vecE p) (vecE l)) (subf (vecE p) (vecE l)))
            (constant (F := Ideal) ⟨0, ![]⟩ .f32 0x00000000#32) h hu))
      = fun _ => ((((2 : ℝ) / 8192) * Real.sqrt (∑ k, (p k - l k) * (p k - l k)) : ℝ) : EReal) := by
  funext y
  rw [mulf_apply, constant_apply, hostSqrt_apply, reduceAdd_total, constant_apply]
  simp only [mulf_apply, subf_apply, vecE_ix1, ← EReal.coe_sub, ← EReal.coe_mul, coe_sum]
  rw [PairRank.ofBits_zero, ← EReal.coe_add, zero_add, Ideal.sqrt_coe,
    if_neg (not_lt.mpr (Finset.sum_nonneg (fun k _ => mul_self_nonneg _))), PairRank.ofBits_two_div_8192,
    ← EReal.coe_mul]

open Cert.ReferenceIdeal.Read Cert.ReferenceIdeal.RefValue in
/-- The kernel's host lines on the columns of the G k and the Trow k compute the reference's result. -/
theorem tail_eq_ref (p l : Fin 8192 → ℝ) :
    Cert.KernelIdeal.KVal.tailK (Cert.KernelIdeal.KVal.colE (PairRank.G p l))
        (Cert.KernelIdeal.KVal.colE (PairRank.Trow p l)) (PairRank.vecE p) (PairRank.vecE l)
      = Cert.ReferenceIdeal.Read.val_main_v76 (F := Ideal) (PairRank.vecE p) (PairRank.vecE l) := by
  unfold Cert.KernelIdeal.KVal.tailK
  rw [shapeCast_col, shapeCast_col, hinge_total, g1_kernel]
  unfold val_main_v76 val_main_v75 val_main_v73 val_main_v72 val_main_v71 val_main_call5_v1 val_main_call5_v0
  rw [grad_eq, rank_eq, g1_eq]
  rfl

end Cert.Proof.Bridge

end
-- ==== Proof.Finite.lean ====
/-
  From the precondition to real-valued inputs.  The precondition says that every element of both input arrays
  has absolute value below +∞.  An extended real with that property is a real number, so each input array is a
  vector of real numbers read as extended reals.
-/
import proofs.«118529_j62191126446112_2_alg».proof.Pre_finite_inputs
import proofs.«118529_j62191126446112_2_alg».proof.Proof.Lift
import Idealize.ShloMosaic.Lib.ReduceAll

noncomputable section

namespace PairRank.Finite

open Idealize.ShloMosaic Idealize.ShloMosaic.ValueIdx

/-- The scalar shape has one index. -/
instance : Subsingleton Cert.Pre_finite_inputs.S_.Idx := ⟨fun _ _ => funext fun d => d.elim0⟩

/-- The word 0x7F800000 is +∞. -/
theorem ofBits_inf : Ideal.ofBits .f32 0x7F800000#32 = ⊤ := by
  simp [Ideal.ofBits, Ideal.ieee]

/-- A comparison "less than" that answers 1 holds. -/
theorem lt_of_cmp_olt {a b : EReal} (h : Ideal.cmp .olt a b = 1#1) : a < b := by
  by_contra hn
  have h0 : Ideal.cmp .olt a b = 0#1 := by
    unfold Ideal.cmp
    simp [hn]
  rw [h0] at h
  exact absurd h (by decide)

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An element whose comparison |x| < +∞ answers 1 is a real number. -/
theorem real_of_cmp (x : EReal)
    (h : Ideal.cmp .olt (max x (-x)) (Ideal.ofBits .f32 0x7F800000#32) = 1#1) : ∃ r : ℝ, x = (r : EReal) := by
  rw [ofBits_inf] at h
  exact real_of_abs_lt_top x (lt_of_cmp_olt h)

/-- An array over the one-axis index type whose elements are all real numbers is a vector of real numbers. -/
theorem eq_vecE {n : ℕ} (x : (⟨1, ![n]⟩ : Shape).Idx → EReal) (hx : ∀ i, ∃ r : ℝ, x i = (r : EReal)) :
    x = vecE (fun k => (x (ix1 k)).toReal) := by
  funext i
  obtain ⟨r, hr⟩ := hx i
  have hi : x (ix1 (i 0)) = (r : EReal) := (congrArg x (eq_ix1 i).symm).trans hr
  show x i = (((x (ix1 (i 0))).toReal : ℝ) : EReal)
  rw [hi, hr, EReal.toReal_coe]

/-- Under the precondition both inputs are vectors of real numbers. -/
theorem real_of_pre [Cert.Pre_finite_inputs.Facts] (x0 x1 : FVec Ideal Cert.Pre_finite_inputs.S8192 .f32)
    (h : Cert.Pre_finite_inputs.fn (F := Ideal) x0 x1 = fun _ => 1#1) :
    ∃ p l : Fin 8192 → ℝ, x0 = PairRank.vecE p ∧ x1 = PairRank.vecE l := by
  have h0 := congrFun h ix0
  dsimp only [Cert.Pre_finite_inputs.fn] at h0
  obtain ⟨e0, e1⟩ := IntOp.andi_eq_one.1 h0
  have r0 : ∀ i, ∃ r : ℝ, x0 i = (r : EReal) := fun i =>
    real_of_cmp (x0 i) (Host.reduce_andi_all _ _ _ _ _ e0 i)
  have r1 : ∀ i, ∃ r : ℝ, x1 i = (r : EReal) := fun i =>
    real_of_cmp (x1 i) (Host.reduce_andi_all _ _ _ _ _ e1 i)
  exact ⟨_, _, eq_vecE x0 r0, eq_vecE x1 r1⟩

end PairRank.Finite

end
-- ==== Proof.lean ====
/-
  A pairwise ranking loss balanced against a mean squared error by gradient norms, over 8192 predictions p and
  labels l:   mse + (|grad mse| / (|grad rank| + eps)) * rank,   rank = the sum over i < j of the hinge
  T i j = max ((p i - p j) * sign (l j - l i) + 2) 0.

  The reference forms the 8192 x 8192 array of T, masks the strict upper triangle and sums it, and differentiates
  that sum; its gradient at k is (the sum over j > k of C k j) - (the sum over i < k of C i k), C i j the label sign
  where the hinge is active.  The kernel sweeps the full grid in 8 x 8 blocks of 1024 x 1024, accumulating the row
  sums of T and of C over the column blocks, and the host lines after it use  rank = (the full sum - 2 * 8192) / 2
  and take the row sums of C as the gradient.  Over real inputs the margin term is symmetric and the label sign
  antisymmetric with zero diagonal, so T is symmetric with diagonal 2 and C antisymmetric with zero diagonal: the two
  ranks and the two gradients agree (PairLaws).  The gradient of the mean squared error is (2 / 8192) (p - l), whose
  norm is (2 / 8192) times the norm of p - l, the kernel's 2^(-12) * sqrt (sum (p - l)^2).  The precondition makes
  every input a real number (Finite), which is what symmetry, antisymmetry and the scaling of the square root need.

  Modules: Spec, PairLaws (the real identities); Lift (extended reals that are real); RefSide (the reference's
  stages); KPieces, KEntry, KBlocks, KAcc, KFinal (the kernel's region: one body run, one entry, the blocks, the
  accumulation over the grid, the two output arrays); KTailDef, KTail (the host lines after the region); Bridge (the
  two results are one); Finite (real inputs from the precondition).
-/
import proofs.«118529_j62191126446112_2_alg».proof.Defs
import proofs.«118529_j62191126446112_2_alg».proof.Proof.Gen.Kernel
import proofs.«118529_j62191126446112_2_alg».proof.Proof.Gen.Kernel.Skeleton
import proofs.«118529_j62191126446112_2_alg».proof.Proof.Gen.Kernel.Launch
import proofs.«118529_j62191126446112_2_alg».proof.Proof.Gen.Kernel.Points
import proofs.«118529_j62191126446112_2_alg».proof.Proof.Gen.Kernel.Frame
import proofs.«118529_j62191126446112_2_alg».proof.Proof.Gen.KernelIdeal
import proofs.«118529_j62191126446112_2_alg».proof.Proof.Gen.KernelIdeal.Skeleton
import proofs.«118529_j62191126446112_2_alg».proof.Proof.Gen.KernelIdeal.Launch
import proofs.«118529_j62191126446112_2_alg».proof.Proof.Gen.KernelIdeal.Points
import proofs.«118529_j62191126446112_2_alg».proof.Proof.Gen.KernelIdeal.Frame
import proofs.«118529_j62191126446112_2_alg».proof.Proof.Gen.ReferenceIdeal
import proofs.«118529_j62191126446112_2_alg».proof.Proof.Gen.ReferenceIdeal.Run
import proofs.«118529_j62191126446112_2_alg».proof.Proof.Gen.ReferenceIdeal.Read
import proofs.«118529_j62191126446112_2_alg».proof.Proof.Gen.Pre_finite_inputs
import Idealize.ShloMosaic.Adequacy
import Idealize.ShloMosaic.Init
import proofs.«118529_j62191126446112_2_alg».proof.Proof.KTail
import proofs.«118529_j62191126446112_2_alg».proof.Proof.Bridge
import proofs.«118529_j62191126446112_2_alg».proof.Proof.Finite

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: 1.0 carrying a number's sign bit is -1 below zero and 1 otherwise. -/
theorem preserves : Cert.preserves_Kernel_KernelIdeal :=
  IdealRules.sign_bit.statement Cert.KernelIdeal.S1024x1024 .f32

/-- From memories that agree on real-valued arguments, the reference's result is the scalar the kernel's host
    lines compute from its two output arrays. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (c : Dev Cert.KernelIdeal.nD) :
    Cert.ReferenceIdeal.Value.res_main_v76 m' c
      = Pipeline.afterTail₀ Cert.KernelIdeal.cfgs (Cert.KernelIdeal.Gen.dats m) 0 (Cert.KernelIdeal.Gen.V0 m) [Cert.KernelIdeal.Gen.hostOps1] c Cert.KernelIdeal.main_v25 := by
  obtain ⟨p, l, hp, hl⟩ := PairRank.Finite.real_of_pre _ _ (hpre c)
  rw [Cert.ReferenceIdeal.Read.val_main_v76_eq, (hagree c).1, (hagree c).2, Cert.KernelIdeal.KVal.tail_eq,
    Cert.KernelIdeal.KVal.final4 m p l c hp hl, Cert.KernelIdeal.KVal.final5 m p l c hp hl, hp, hl]
  exact (Cert.Proof.Bridge.tail_eq_ref p l).symm

/-- Both idealized programs run, end with equal results and leave their arguments unchanged. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v25, ?_, ?_⟩
  · exact (θ_run Cert.KernelIdeal.defs _ _).mono (fun _ h c =>
      ⟨(h c).2 Cert.KernelIdeal.main_v25 (Pipeline.mem_restRefs_of Cert.KernelIdeal.main_v25 (by decide) (by decide)),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c)⟩)
      (Cert.KernelIdeal.Gen.run_main m ρ)
  · exact (θ_run Cert.ReferenceIdeal.defs _ _).mono (fun _ h c =>
      ⟨(h c).1.trans (result_eq m m' hpre hagree c), (h c).2.1, (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
